-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S600000 : Shape := ⟨1, ![600000]⟩
abbrev S500000 : Shape := ⟨1, ![500000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg14 : FVec F S256x128 .f32) (main_arg15 : FVec F S128 .f32) (main_arg16 : FVec F S128x1 .f32) (main_arg17 : FVec F S1 .f32) (main_v63 : IVec S_ 1) (main_v67 : IVec S_ 1) : IVec S_ 1 :=
  let main_v68 : IVec S_ 1 := andi main_v63 main_v67
  let main_v69 : FVec F S256x128 .f32 := Host.absf main_arg14
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x1 .f32 := Host.absf main_arg16
  let main_cst_30 : FVec F S_ .f32 := constant S_ .f32 0x7F800000#32
  let main_v80 : FVec F S128x1 .f32 := broadcastInDim S128x1 ![] bcast_S_S128x1 main_cst_30
  let main_v81 : IVec S128x1 1 := cmpf .olt main_v79 main_v80
  let main_c_31 : IVec S_ 1 := constantI S_ 1 1#1
  let main_v82 : IVec S_ 1 := (fun x v => Host.reduce IntOp.andi x v reducesTo_S128x1_S_d0_1 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_v83 main_v84 main_cst_32

def fn_part3 {F : FTy → Type} [FloatOps F] (main_arg11 : FVec F S128x128 .f32) (main_arg12 : FVec F S128 .f32) (main_arg13 : FVec F S128x128 .f32) (main_arg14 : FVec F S256x128 .f32) (main_arg15 : FVec F S128 .f32) (main_arg16 : FVec F S128x1 .f32) (main_arg17 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_arg16 main_arg17 main_v63 main_v67

def fn_part2 {F : FTy → Type} [FloatOps F] (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S256x128 .f32) (main_arg15 : FVec F S128 .f32) (main_arg16 : FVec F S128x1 .f32) (main_arg17 : FVec F S1 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_arg16 main_arg17 main_v48 main_v49 main_v50

def fn_part1 {F : FTy → Type} [FloatOps F] (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S256x128 .f32) (main_arg15 : FVec F S128 .f32) (main_arg16 : FVec F S128x1 .f32) (main_arg17 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S100000x128 .f32) (main_arg1 : FVec F S50000x128 .f32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S256x128 .f32) (main_arg15 : FVec F S128 .f32) (main_arg16 : FVec F S128x1 .f32) (main_arg17 : FVec F S1 .f32) (main_arg18 : IVec S600000 32) (main_arg19 : IVec S600000 32) (main_arg20 : IVec S600000 32) (main_arg21 : IVec S600000 32) (main_arg22 : IVec S500000 32) (main_arg23 : IVec S500000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S50000x128 : Shape := ⟨2, ![50000, 128]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S600000 : Shape := ⟨1, ![600000]⟩
abbrev S500000 : Shape := ⟨1, ![500000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S5000x128 : Shape := ⟨2, ![5000, 128]⟩
abbrev S100000x1 : Shape := ⟨2, ![100000, 1]⟩
abbrev S500000x1 : Shape := ⟨2, ![500000, 1]⟩
abbrev S500000x128 : Shape := ⟨2, ![500000, 128]⟩
abbrev S1x1 : Shape := ⟨2, ![1, 1]⟩
abbrev S5000x1 : Shape := ⟨2, ![5000, 1]⟩

abbrev nBuf : Space → Nat
  | .hbm => 151
  | .vmem => 47
  | .smem => 0
  | _ => 0

abbrev hbmTy0_0 (i : Nat) : BufTy := match i % 128 with
  | 0 => ⟨S100000x128, .f32⟩
  | 1 => ⟨S50000x128, .f32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S256x128, .f32⟩
  | 15 => ⟨S128, .f32⟩
  | 16 => ⟨S128x1, .f32⟩
  | 17 => ⟨S1, .f32⟩
  | 18 => ⟨S600000, .i32⟩
  | 19 => ⟨S600000, .i32⟩
  | 20 => ⟨S600000, .i32⟩
  | 21 => ⟨S600000, .i32⟩
  | 22 => ⟨S500000, .i32⟩
  | 23 => ⟨S500000, .i32⟩
  | 24 => ⟨S_, .i32⟩
  | 25 => ⟨S600000, .i32⟩
  | 26 => ⟨S600000, .i1⟩
  | 27 => ⟨S_, .i32⟩
  | 28 => ⟨S600000, .i32⟩
  | 29 => ⟨S600000, .i32⟩
  | 30 => ⟨S600000, .i32⟩
  | 31 => ⟨S600000x1, .i32⟩
  | 32 => ⟨S600000x128, .f32⟩
  | 33 => ⟨S_, .f32⟩
  | 34 => ⟨S50000x128, .f32⟩
  | 35 => ⟨S600000x1, .i32⟩
  | 36 => ⟨S50000x128, .f32⟩
  | 37 => ⟨S_, .f32⟩
  | 38 => ⟨S600000x1, .f32⟩
  | 39 => ⟨S_, .f32⟩
  | 40 => ⟨S50000x1, .f32⟩
  | 41 => ⟨S600000x1, .i32⟩
  | 42 => ⟨S50000x1, .f32⟩
  | 43 => ⟨S_, .f32⟩
  | 44 => ⟨S50000x1, .f32⟩
  | 45 => ⟨S50000x1, .f32⟩
  | 46 => ⟨S50000x128, .f32⟩
  | 47 => ⟨S50000x128, .f32⟩
  | 48 => ⟨S1x128, .f32⟩
  | 49 => ⟨S50000x128, .f32⟩
  | 50 => ⟨S_, .i32⟩
  | 51 => ⟨S600000, .i32⟩
  | 52 => ⟨S600000, .i1⟩
  | 53 => ⟨S_, .i32⟩
  | 54 => ⟨S600000, .i32⟩
  | 55 => ⟨S600000, .i32⟩
  | 56 => ⟨S600000, .i32⟩
  | 57 => ⟨S600000x1, .i32⟩
  | 58 => ⟨S600000x128, .f32⟩
  | 59 => ⟨S_, .f32⟩
  | 60 => ⟨S100000x128, .f32⟩
  | 61 => ⟨S600000x1, .i32⟩
  | 62 => ⟨S100000x128, .f32⟩
  | 63 => ⟨S_, .f32⟩
  | 64 => ⟨S600000x1, .f32⟩
  | 65 => ⟨S_, .f32⟩
  | 66 => ⟨S100000x1, .f32⟩
  | 67 => ⟨S600000x1, .i32⟩
  | 68 => ⟨S100000x1, .f32⟩
  | 69 => ⟨S_, .f32⟩
  | 70 => ⟨S100000x1, .f32⟩
  | 71 => ⟨S100000x1, .f32⟩
  | 72 => ⟨S100000x128, .f32⟩
  | 73 => ⟨S100000x128, .f32⟩
  | 74 => ⟨S1x128, .f32⟩
  | 75 => ⟨S100000x128, .f32⟩
  | 76 => ⟨S_, .i32⟩
  | 77 => ⟨S600000, .i32⟩
  | 78 => ⟨S600000, .i1⟩
  | 79 => ⟨S_, .i32⟩
  | 80 => ⟨S600000, .i32⟩
  | 81 => ⟨S600000, .i32⟩
  | 82 => ⟨S600000, .i32⟩
  | 83 => ⟨S600000x1, .i32⟩
  | 84 => ⟨S600000x128, .f32⟩
  | 85 => ⟨S_, .f32⟩
  | 86 => ⟨S50000x128, .f32⟩
  | 87 => ⟨S600000x1, .i32⟩
  | 88 => ⟨S50000x128, .f32⟩
  | 89 => ⟨S_, .f32⟩
  | 90 => ⟨S600000x1, .f32⟩
  | 91 => ⟨S_, .f32⟩
  | 92 => ⟨S50000x1, .f32⟩
  | 93 => ⟨S600000x1, .i32⟩
  | 94 => ⟨S50000x1, .f32⟩
  | 95 => ⟨S_, .f32⟩
  | 96 => ⟨S50000x1, .f32⟩
  | 97 => ⟨S50000x1, .f32⟩
  | 98 => ⟨S50000x128, .f32⟩
  | 99 => ⟨S50000x128, .f32⟩
  | 100 => ⟨S1x128, .f32⟩
  | 101 => ⟨S50000x128, .f32⟩
  | 102 => ⟨S_, .i32⟩
  | 103 => ⟨S600000, .i32⟩
  | 104 => ⟨S600000, .i1⟩
  | 105 => ⟨S_, .i32⟩
  | 106 => ⟨S600000, .i32⟩
  | 107 => ⟨S600000, .i32⟩
  | 108 => ⟨S600000, .i32⟩
  | 109 => ⟨S600000x1, .i32⟩
  | 110 => ⟨S600000x128, .f32⟩
  | 111 => ⟨S_, .f32⟩
  | 112 => ⟨S100000x128, .f32⟩
  | 113 => ⟨S600000x1, .i32⟩
  | 114 => ⟨S100000x128, .f32⟩
  | 115 => ⟨S_, .f32⟩
  | 116 => ⟨S600000x1, .f32⟩
  | 117 => ⟨S_, .f32⟩
  | 118 => ⟨S100000x1, .f32⟩
  | 119 => ⟨S600000x1, .i32⟩
  | 120 => ⟨S100000x1, .f32⟩
  | 121 => ⟨S_, .f32⟩
  | 122 => ⟨S100000x1, .f32⟩
  | 123 => ⟨S100000x1, .f32⟩
  | 124 => ⟨S100000x128, .f32⟩
  | 125 => ⟨S100000x128, .f32⟩
  | 126 => ⟨S1x128, .f32⟩
  | 127 => ⟨S100000x128, .f32⟩
  | _ => ⟨S100000x128, .f32⟩

abbrev hbmTy0_1 (i : Nat) : BufTy := match i % 128 with
  | 0 => ⟨S_, .i32⟩
  | 1 => ⟨S500000, .i32⟩
  | 2 => ⟨S500000, .i1⟩
  | 3 => ⟨S_, .i32⟩
  | 4 => ⟨S500000, .i32⟩
  | 5 => ⟨S500000, .i32⟩
  | 6 => ⟨S500000, .i32⟩
  | 7 => ⟨S500000x1, .i32⟩
  | 8 => ⟨S500000x128, .f32⟩
  | 9 => ⟨S_, .i32⟩
  | 10 => ⟨S500000, .i32⟩
  | 11 => ⟨S500000, .i1⟩
  | 12 => ⟨S_, .i32⟩
  | 13 => ⟨S500000, .i32⟩
  | 14 => ⟨S500000, .i32⟩
  | 15 => ⟨S500000, .i32⟩
  | 16 => ⟨S500000x1, .i32⟩
  | 17 => ⟨S500000x128, .f32⟩
  | 18 => ⟨S128x128, .f32⟩
  | 19 => ⟨S128x128, .f32⟩
  | 20 => ⟨S1x128, .f32⟩
  | 21 => ⟨S1x1, .f32⟩
  | 22 => ⟨S500000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S1x128, .f32⟩
  | .local _ .vmem, ⟨33, _⟩ => ⟨S128x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S128x128, .f32⟩
  | .local _ .vmem, ⟨42, _⟩ => ⟨S1x128, .f32⟩
  | .local _ .vmem, ⟨43, _⟩ => ⟨S128x1, .f32⟩
  | .local _ .vmem, ⟨44, _⟩ => ⟨S1x1, .f32⟩
  | .local _ .vmem, ⟨45, _⟩ => ⟨S5000x1, .f32⟩
  | .local _ .vmem, ⟨46, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst_1 : Ref sig .tc := ⟨.hbm, 37, rfl⟩
abbrev main_v10 : Ref sig .tc := ⟨.hbm, 38, rfl⟩
abbrev main_cst_2 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_3 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_c_4 : Ref sig .tc := ⟨.hbm, 50, rfl⟩
abbrev main_v20 : Ref sig .tc := ⟨.hbm, 51, rfl⟩
abbrev main_v21 : Ref sig .tc := ⟨.hbm, 52, rfl⟩
abbrev main_c_5 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_6 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_cst_7 : Ref sig .tc := ⟨.hbm, 63, rfl⟩
abbrev main_v30 : Ref sig .tc := ⟨.hbm, 64, rfl⟩
abbrev main_cst_8 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_cst_9 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_c_10 : Ref sig .tc := ⟨.hbm, 76, rfl⟩
abbrev main_v40 : Ref sig .tc := ⟨.hbm, 77, rfl⟩
abbrev main_v41 : Ref sig .tc := ⟨.hbm, 78, rfl⟩
abbrev main_c_11 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_cst_12 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_13 : Ref sig .tc := ⟨.hbm, 89, rfl⟩
abbrev main_v50 : Ref sig .tc := ⟨.hbm, 90, rfl⟩
abbrev main_cst_14 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_cst_15 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_c_16 : Ref sig .tc := ⟨.hbm, 102, rfl⟩
abbrev main_v60 : Ref sig .tc := ⟨.hbm, 103, rfl⟩
abbrev main_v61 : Ref sig .tc := ⟨.hbm, 104, rfl⟩
abbrev main_c_17 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_cst_18 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_cst_19 : Ref sig .tc := ⟨.hbm, 115, rfl⟩
abbrev main_v70 : Ref sig .tc := ⟨.hbm, 116, rfl⟩
abbrev main_cst_20 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_cst_21 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_c_22 : Ref sig .tc := ⟨.hbm, 128, rfl⟩
abbrev main_v80 : Ref sig .tc := ⟨.hbm, 129, rfl⟩
abbrev main_v81 : Ref sig .tc := ⟨.hbm, 130, rfl⟩
abbrev main_c_23 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_c_24 : Ref sig .tc := ⟨.hbm, 137, rfl⟩
abbrev main_v87 : Ref sig .tc := ⟨.hbm, 138, rfl⟩
abbrev main_v88 : Ref sig .tc := ⟨.hbm, 139, rfl⟩
abbrev main_c_25 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg7_0 : Ref sig .tc := ⟨.vmem, 45, rfl⟩
abbrev cc4_stg7_1 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem7_0 : DmaSem sig := 45
abbrev cc4_sem7_1 : DmaSem sig := 46

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x1 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S600000x1 : S_.BroadcastsInDim S600000x1 (![] : Fin 0 → Fin S600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S100000x128 : S_.BroadcastsInDim S100000x128 (![] : Fin 0 → Fin S100000x128.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S500000 : S_.BroadcastsInDim S500000 (![] : Fin 0 → Fin S500000.rank)
  bcast_S500000_S500000x1_0 : S500000.BroadcastsInDim S500000x1 (![0] : Fin 1 → Fin S500000x1.rank)
  slices_S256x128_S128x128_0_0 : S256x128.Slices ![0, 0] S128x128
  slices_S256x128_S128x128_128_0 : S256x128.Slices ![128, 0] S128x128
  shapeCasts_S1_S1x1 : S1.ShapeCasts S1x1
  shapeCasts_S128x128_S128x128 : S128x128.ShapeCasts S128x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S100000x128_S600000x1_S600000x128_1_0_n_n_0_1_1128_wf : GatherDims.WF S100000x128 S600000x1 S600000x128 [1] [0] [] [0] [] 1 ![1, 128]
  scatter_S50000x128_S600000x1_S600000x128_1_0_0_1_wf : ScatterDims.WF S50000x128 S600000x1 S600000x128 [1] [0] [0] 1
  scatter_S50000x1_S600000x1_S600000x1_1_0_0_1_wf : ScatterDims.WF S50000x1 S600000x1 S600000x1 [1] [0] [0] 1
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S100000x128_S600000x1_S600000x128_1_0_0_1_wf : ScatterDims.WF S100000x128 S600000x1 S600000x128 [1] [0] [0] 1
  scatter_S100000x1_S600000x1_S600000x1_1_0_0_1_wf : ScatterDims.WF S100000x1 S600000x1 S600000x1 [1] [0] [0] 1
  gather_S100000x128_S500000x1_S500000x128_1_0_n_n_0_1_1128_wf : GatherDims.WF S100000x128 S500000x1 S500000x128 [1] [0] [] [0] [] 1 ![1, 128]
  gather_S50000x128_S500000x1_S500000x128_1_0_n_n_0_1_1128_wf : GatherDims.WF S50000x128 S500000x1 S500000x128 [1] [0] [] [0] [] 1 ![1, 128]
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S500000x128.size a
  hwx4_0 : ∀ i : grid4.Coords, EltTy.bits .f32 = 32 ∨ (Rect.block (s := S500000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S500000x128.size a
  hwx4_1 : ∀ i : grid4.Coords, EltTy.bits .f32 = 32 ∨ (Rect.block (s := S500000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x1.size a ≤ S128x1.size a
  hwx4_5 : ∀ i : grid4.Coords, EltTy.bits .f32 = 32 ∨ (Rect.block (s := S128x1) S128x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1.size a ≤ S1x1.size a
  hwx4_6 : ∀ i : grid4.Coords, EltTy.bits .f32 = 32 ∨ (Rect.block (s := S1x1) S1x1.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x1.size a ≤ S500000x1.size a
  hwx4_7 : ∀ i : grid4.Coords, EltTy.bits .f32 = 32 ∨ (Rect.block (s := S500000x1) S5000x1.size (cc4_transform_7 i) (hinb4_7 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v17) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v77) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v78) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v79) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v86) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v93) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v94) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v95) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v96) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg16) S128x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v97) S1x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v98) S5000x1.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S600000 : Shape := ⟨1, ![600000]⟩
abbrev S500000 : Shape := ⟨1, ![500000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S100000x1 : Shape := ⟨2, ![100000, 1]⟩
abbrev S500000x1 : Shape := ⟨2, ![500000, 1]⟩
abbrev S500000x128 : Shape := ⟨2, ![500000, 128]⟩
abbrev S500000x256 : Shape := ⟨2, ![500000, 256]⟩
abbrev S1x1 : Shape := ⟨2, ![1, 1]⟩

abbrev nBuf : Space → Nat
  | .hbm => 189
  | .vmem => 0
  | .smem => 0
  | _ => 0

abbrev hbmTy0_0 (i : Nat) : BufTy := match i % 128 with
  | 0 => ⟨S100000x128, .f32⟩
  | 1 => ⟨S50000x128, .f32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S256x128, .f32⟩
  | 15 => ⟨S128, .f32⟩
  | 16 => ⟨S128x1, .f32⟩
  | 17 => ⟨S1, .f32⟩
  | 18 => ⟨S600000, .i32⟩
  | 19 => ⟨S600000, .i32⟩
  | 20 => ⟨S600000, .i32⟩
  | 21 => ⟨S600000, .i32⟩
  | 22 => ⟨S500000, .i32⟩
  | 23 => ⟨S500000, .i32⟩
  | 24 => ⟨S_, .i32⟩
  | 25 => ⟨S600000, .i32⟩
  | 26 => ⟨S600000, .i1⟩
  | 27 => ⟨S_, .i32⟩
  | 28 => ⟨S600000, .i32⟩
  | 29 => ⟨S600000, .i32⟩
  | 30 => ⟨S600000, .i32⟩
  | 31 => ⟨S600000x1, .i32⟩
  | 32 => ⟨S600000x128, .f32⟩
  | 33 => ⟨S_, .f32⟩
  | 34 => ⟨S50000x128, .f32⟩
  | 35 => ⟨S600000x1, .i32⟩
  | 36 => ⟨S50000x128, .f32⟩
  | 37 => ⟨S_, .f32⟩
  | 38 => ⟨S600000x1, .f32⟩
  | 39 => ⟨S_, .f32⟩
  | 40 => ⟨S50000x1, .f32⟩
  | 41 => ⟨S600000x1, .i32⟩
  | 42 => ⟨S50000x1, .f32⟩
  | 43 => ⟨S_, .f32⟩
  | 44 => ⟨S50000x1, .f32⟩
  | 45 => ⟨S50000x1, .f32⟩
  | 46 => ⟨S50000x128, .f32⟩
  | 47 => ⟨S50000x128, .f32⟩
  | 48 => ⟨S50000x128, .f32⟩
  | 49 => ⟨S1x128, .f32⟩
  | 50 => ⟨S50000x128, .f32⟩
  | 51 => ⟨S50000x128, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S_, .i32⟩
  | 58 => ⟨S600000, .i32⟩
  | 59 => ⟨S600000, .i1⟩
  | 60 => ⟨S_, .i32⟩
  | 61 => ⟨S600000, .i32⟩
  | 62 => ⟨S600000, .i32⟩
  | 63 => ⟨S600000, .i32⟩
  | 64 => ⟨S600000x1, .i32⟩
  | 65 => ⟨S600000x128, .f32⟩
  | 66 => ⟨S_, .f32⟩
  | 67 => ⟨S100000x128, .f32⟩
  | 68 => ⟨S600000x1, .i32⟩
  | 69 => ⟨S100000x128, .f32⟩
  | 70 => ⟨S_, .f32⟩
  | 71 => ⟨S600000x1, .f32⟩
  | 72 => ⟨S_, .f32⟩
  | 73 => ⟨S100000x1, .f32⟩
  | 74 => ⟨S600000x1, .i32⟩
  | 75 => ⟨S100000x1, .f32⟩
  | 76 => ⟨S_, .f32⟩
  | 77 => ⟨S100000x1, .f32⟩
  | 78 => ⟨S100000x1, .f32⟩
  | 79 => ⟨S100000x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S_, .i32⟩
  | 91 => ⟨S600000, .i32⟩
  | 92 => ⟨S600000, .i1⟩
  | 93 => ⟨S_, .i32⟩
  | 94 => ⟨S600000, .i32⟩
  | 95 => ⟨S600000, .i32⟩
  | 96 => ⟨S600000, .i32⟩
  | 97 => ⟨S600000x1, .i32⟩
  | 98 => ⟨S600000x128, .f32⟩
  | 99 => ⟨S_, .f32⟩
  | 100 => ⟨S50000x128, .f32⟩
  | 101 => ⟨S600000x1, .i32⟩
  | 102 => ⟨S50000x128, .f32⟩
  | 103 => ⟨S_, .f32⟩
  | 104 => ⟨S600000x1, .f32⟩
  | 105 => ⟨S_, .f32⟩
  | 106 => ⟨S50000x1, .f32⟩
  | 107 => ⟨S600000x1, .i32⟩
  | 108 => ⟨S50000x1, .f32⟩
  | 109 => ⟨S_, .f32⟩
  | 110 => ⟨S50000x1, .f32⟩
  | 111 => ⟨S50000x1, .f32⟩
  | 112 => ⟨S50000x128, .f32⟩
  | 113 => ⟨S50000x128, .f32⟩
  | 114 => ⟨S50000x128, .f32⟩
  | 115 => ⟨S1x128, .f32⟩
  | 116 => ⟨S50000x128, .f32⟩
  | 117 => ⟨S50000x128, .f32⟩
  | 118 => ⟨S50000x128, .f32⟩
  | 119 => ⟨S50000x128, .f32⟩
  | 120 => ⟨S_, .f32⟩
  | 121 => ⟨S50000x128, .f32⟩
  | 122 => ⟨S50000x128, .f32⟩
  | 123 => ⟨S_, .i32⟩
  | 124 => ⟨S600000, .i32⟩
  | 125 => ⟨S600000, .i1⟩
  | 126 => ⟨S_, .i32⟩
  | 127 => ⟨S600000, .i32⟩
  | _ => ⟨S100000x128, .f32⟩

abbrev hbmTy0_1 (i : Nat) : BufTy := match i % 128 with
  | 0 => ⟨S600000, .i32⟩
  | 1 => ⟨S600000, .i32⟩
  | 2 => ⟨S600000x1, .i32⟩
  | 3 => ⟨S600000x128, .f32⟩
  | 4 => ⟨S_, .f32⟩
  | 5 => ⟨S100000x128, .f32⟩
  | 6 => ⟨S600000x1, .i32⟩
  | 7 => ⟨S100000x128, .f32⟩
  | 8 => ⟨S_, .f32⟩
  | 9 => ⟨S600000x1, .f32⟩
  | 10 => ⟨S_, .f32⟩
  | 11 => ⟨S100000x1, .f32⟩
  | 12 => ⟨S600000x1, .i32⟩
  | 13 => ⟨S100000x1, .f32⟩
  | 14 => ⟨S_, .f32⟩
  | 15 => ⟨S100000x1, .f32⟩
  | 16 => ⟨S100000x1, .f32⟩
  | 17 => ⟨S100000x128, .f32⟩
  | 18 => ⟨S100000x128, .f32⟩
  | 19 => ⟨S100000x128, .f32⟩
  | 20 => ⟨S1x128, .f32⟩
  | 21 => ⟨S100000x128, .f32⟩
  | 22 => ⟨S100000x128, .f32⟩
  | 23 => ⟨S100000x128, .f32⟩
  | 24 => ⟨S100000x128, .f32⟩
  | 25 => ⟨S_, .f32⟩
  | 26 => ⟨S100000x128, .f32⟩
  | 27 => ⟨S100000x128, .f32⟩
  | 28 => ⟨S_, .i32⟩
  | 29 => ⟨S500000, .i32⟩
  | 30 => ⟨S500000, .i1⟩
  | 31 => ⟨S_, .i32⟩
  | 32 => ⟨S500000, .i32⟩
  | 33 => ⟨S500000, .i32⟩
  | 34 => ⟨S500000, .i32⟩
  | 35 => ⟨S500000x1, .i32⟩
  | 36 => ⟨S500000x128, .f32⟩
  | 37 => ⟨S_, .i32⟩
  | 38 => ⟨S500000, .i32⟩
  | 39 => ⟨S500000, .i1⟩
  | 40 => ⟨S_, .i32⟩
  | 41 => ⟨S500000, .i32⟩
  | 42 => ⟨S500000, .i32⟩
  | 43 => ⟨S500000, .i32⟩
  | 44 => ⟨S500000x1, .i32⟩
  | 45 => ⟨S500000x128, .f32⟩
  | 46 => ⟨S500000x256, .f32⟩
  | 47 => ⟨S500000x128, .f32⟩
  | 48 => ⟨S1x128, .f32⟩
  | 49 => ⟨S500000x128, .f32⟩
  | 50 => ⟨S500000x128, .f32⟩
  | 51 => ⟨S_, .f32⟩
  | 52 => ⟨S500000x128, .f32⟩
  | 53 => ⟨S500000x128, .f32⟩
  | 54 => ⟨S500000x1, .f32⟩
  | 55 => ⟨S1x1, .f32⟩
  | 56 => ⟨S500000x1, .f32⟩
  | 57 => ⟨S500000x1, .f32⟩
  | 58 => ⟨S_, .f32⟩
  | 59 => ⟨S500000x1, .f32⟩
  | 60 => ⟨S500000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst_1 : Ref sig .tc := ⟨.hbm, 37, rfl⟩
abbrev main_v10 : Ref sig .tc := ⟨.hbm, 38, rfl⟩
abbrev main_cst_2 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_3 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_call0_cst : Ref sig .tc := ⟨.hbm, 54, rfl⟩
abbrev main_call0_v0 : Ref sig .tc := ⟨.hbm, 55, rfl⟩
abbrev main_v24 : Ref sig .tc := ⟨.hbm, 56, rfl⟩
abbrev main_c_4 : Ref sig .tc := ⟨.hbm, 57, rfl⟩
abbrev main_v25 : Ref sig .tc := ⟨.hbm, 58, rfl⟩
abbrev main_v26 : Ref sig .tc := ⟨.hbm, 59, rfl⟩
abbrev main_c_5 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_cst_6 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_cst_7 : Ref sig .tc := ⟨.hbm, 70, rfl⟩
abbrev main_v35 : Ref sig .tc := ⟨.hbm, 71, rfl⟩
abbrev main_cst_8 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst_9 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_call1_cst : Ref sig .tc := ⟨.hbm, 87, rfl⟩
abbrev main_call1_v0 : Ref sig .tc := ⟨.hbm, 88, rfl⟩
abbrev main_v49 : Ref sig .tc := ⟨.hbm, 89, rfl⟩
abbrev main_c_10 : Ref sig .tc := ⟨.hbm, 90, rfl⟩
abbrev main_v50 : Ref sig .tc := ⟨.hbm, 91, rfl⟩
abbrev main_v51 : Ref sig .tc := ⟨.hbm, 92, rfl⟩
abbrev main_c_11 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_cst_12 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_cst_13 : Ref sig .tc := ⟨.hbm, 103, rfl⟩
abbrev main_v60 : Ref sig .tc := ⟨.hbm, 104, rfl⟩
abbrev main_cst_14 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_cst_15 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_call2_cst : Ref sig .tc := ⟨.hbm, 120, rfl⟩
abbrev main_call2_v0 : Ref sig .tc := ⟨.hbm, 121, rfl⟩
abbrev main_v74 : Ref sig .tc := ⟨.hbm, 122, rfl⟩
abbrev main_c_16 : Ref sig .tc := ⟨.hbm, 123, rfl⟩
abbrev main_v75 : Ref sig .tc := ⟨.hbm, 124, rfl⟩
abbrev main_v76 : Ref sig .tc := ⟨.hbm, 125, rfl⟩
abbrev main_c_17 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_cst_18 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_cst_19 : Ref sig .tc := ⟨.hbm, 136, rfl⟩
abbrev main_v85 : Ref sig .tc := ⟨.hbm, 137, rfl⟩
abbrev main_cst_20 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_cst_21 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_call3_cst : Ref sig .tc := ⟨.hbm, 153, rfl⟩
abbrev main_call3_v0 : Ref sig .tc := ⟨.hbm, 154, rfl⟩
abbrev main_v99 : Ref sig .tc := ⟨.hbm, 155, rfl⟩
abbrev main_c_22 : Ref sig .tc := ⟨.hbm, 156, rfl⟩
abbrev main_v100 : Ref sig .tc := ⟨.hbm, 157, rfl⟩
abbrev main_v101 : Ref sig .tc := ⟨.hbm, 158, rfl⟩
abbrev main_c_23 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_c_24 : Ref sig .tc := ⟨.hbm, 165, rfl⟩
abbrev main_v107 : Ref sig .tc := ⟨.hbm, 166, rfl⟩
abbrev main_v108 : Ref sig .tc := ⟨.hbm, 167, rfl⟩
abbrev main_c_25 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_call4_cst : Ref sig .tc := ⟨.hbm, 179, rfl⟩
abbrev main_call4_v0 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_call5_cst : Ref sig .tc := ⟨.hbm, 186, rfl⟩
abbrev main_call5_v0 : Ref sig .tc := ⟨.hbm, 187, rfl⟩
abbrev main_v124 : Ref sig .tc := ⟨.hbm, 188, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S600000x1 : S_.BroadcastsInDim S600000x1 (![] : Fin 0 → Fin S600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S100000x128 : S_.BroadcastsInDim S100000x128 (![] : Fin 0 → Fin S100000x128.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x256_d1 : Shape.Concatenates [S500000x128, S500000x128] S500000x256 1
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  gather_S100000x128_S600000x1_S600000x128_1_0_n_n_0_1_1128_wf : GatherDims.WF S100000x128 S600000x1 S600000x128 [1] [0] [] [0] [] 1 ![1, 128]
  scatter_S50000x128_S600000x1_S600000x128_1_0_0_1_wf : ScatterDims.WF S50000x128 S600000x1 S600000x128 [1] [0] [0] 1
  scatter_S50000x1_S600000x1_S600000x1_1_0_0_1_wf : ScatterDims.WF S50000x1 S600000x1 S600000x1 [1] [0] [0] 1
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S100000x128_S600000x1_S600000x128_1_0_0_1_wf : ScatterDims.WF S100000x128 S600000x1 S600000x128 [1] [0] [0] 1
  scatter_S100000x1_S600000x1_S600000x1_1_0_0_1_wf : ScatterDims.WF S100000x1 S600000x1 S600000x1 [1] [0] [0] 1
  dot_S100000x128_S128x128_S100000x128_1_0_0_1_n_n_wf : DotDims.WF S100000x128 S128x128 S100000x128 [1] [0] [0] [1] [] []
  gather_S100000x128_S500000x1_S500000x128_1_0_n_n_0_1_1128_wf : GatherDims.WF S100000x128 S500000x1 S500000x128 [1] [0] [] [0] [] 1 ![1, 128]
  gather_S50000x128_S500000x1_S500000x128_1_0_n_n_0_1_1128_wf : GatherDims.WF S50000x128 S500000x1 S500000x128 [1] [0] [] [0] [] 1 ![1, 128]
  dot_S500000x256_S256x128_S500000x128_1_0_0_1_n_n_wf : DotDims.WF S500000x256 S256x128 S500000x128 [1] [0] [0] [1] [] []
  dot_S500000x128_S128x1_S500000x1_1_0_0_1_n_n_wf : DotDims.WF S500000x128 S128x1 S500000x1 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf

class Facts : Prop extends Facts₀ where

variable [Facts]
-- ==== Proof.KRun.lean ====
/-
  The idealized kernel's run with its result named.

  @main is ten segments: five stretches of host operations and five pipelined regions.  The buffer contents at every
  segment boundary are a fold from the launch memory (a stretch applies its operations; a region leaves in each of
  its arrays what its write-backs leave and every other buffer as entered).  Every weakly fair execution terminates,
  and in the final memory every unscoped buffer holds the last boundary's contents: the result buffer, in
  particular, holds the fold's value there, and each argument array what it held at launch.
-/
import proofs.«106309_j65171833749593_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting; the result buffer ends at the last segment
    boundary's contents and the argument arrays as launched. -/
theorem run_main : θ_run defs (onTc (τ := τ) (main (F := F))) ⟨m, fun _ => 0, ρ⟩ (fun r => ∀ c : Dev nD,
      r.2.mem ((c.tc : Thread nD τ).loc main_v98) = W10 m ρ c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v98 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c),
       (h c _ (mem_uc main_arg19 (by decide))).trans (W10_main_arg19 m ρ c),
       (h c _ (mem_uc main_arg20 (by decide))).trans (W10_main_arg20 m ρ c),
       (h c _ (mem_uc main_arg21 (by decide))).trans (W10_main_arg21 m ρ c),
       (h c _ (mem_uc main_arg22 (by decide))).trans (W10_main_arg22 m ρ c),
       (h c _ (mem_uc main_arg23 (by decide))).trans (W10_main_arg23 m ρ c)⟩)

end Cert.KernelIdeal.Run

end
-- ==== Proof.KTransport.lean ====
/-
  Buffers that nothing writes between two segment boundaries hold the same contents at both.

  @main's boundary contents are a fold: a stretch of host operations changes only the buffers its operations
  write; a region changes only its output array (an input window's array ends as it was entered, and a buffer that is no
  window of the region is untouched).  So each argument array is, at every boundary where a later segment reads it,
  what the launch memory held; and each region's result reaches the later boundaries that read it unchanged.
  The tactics below walk one buffer back through the boundaries, one hop per segment.
-/
import proofs.«106309_j65171833749593_1_alg».proof.Proof.Gen.KernelIdeal.Frame

set_option maxRecDepth 16384

noncomputable section

namespace Cert.KernelIdeal.Transport

open Idealize.ShloMosaic Idealize.ShloMosaic.TcCoe Idealize.SL.Sem
open Idealize.ShloMosaic.Pipeline (Dat)
open Cert.KernelIdeal Cert.KernelIdeal.Gen

/-- A buffer that no operation of a stretch writes holds after the stretch what it held before: the buffers the
    stretch's operations write are listed, and each is a different reference. -/
macro "not_written" ops:ident : tactic => `(tactic| (
  refine StableHlo.after_of_forall_not_mem _ _ (List.forall_iff_forall_mem.mp ?_)
  simp only [$ops:ident, List.flatten_cons, List.flatten_nil, List.append_nil,
    List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-- One hop back through a stretch of host operations that does not write the buffer. -/
macro "hop_host" ops:ident : tactic => `(tactic| refine Eq.trans (by not_written $ops) ?_)

/-- One hop back through region 0: the buffer is no window of it, or it is the region's second input window, whose
    array ends as it was entered. -/
macro "hop2" : tactic => `(tactic| first
  | refine (W2_of_ne _ _ _ _ (by decide)).trans ?_
  | refine ((W2_arr _ _ _ 1).trans (((dat0 (V1 _ _) _).arrAt_in 1 rfl _).trans (A_eq0 (V1 _ _) _ 1))).trans ?_)
/-- One hop back through region 1, of which the buffer is no window. -/
macro "hop4" : tactic => `(tactic| refine (W4_of_ne _ _ _ _ (by decide)).trans ?_)
/-- One hop back through region 2: no window of it, or its second input window. -/
macro "hop6" : tactic => `(tactic| first
  | refine (W6_of_ne _ _ _ _ (by decide)).trans ?_
  | refine ((W6_arr _ _ _ 1).trans (((dat2 (V5 _ _) _).arrAt_in 1 rfl _).trans (A_eq2 (V5 _ _) _ 1))).trans ?_)
/-- One hop back through region 3, of which the buffer is no window. -/
macro "hop8" : tactic => `(tactic| refine (W8_of_ne _ _ _ _ (by decide)).trans ?_)

/-- An argument array at the boundary after region 0, 1, 2, 3 is what the launch memory held: hop by hop back to
    the launch. -/
macro "carried2" : tactic => `(tactic| (hop2; hop_host hostOps0; rfl))
macro "carried4" : tactic => `(tactic| (hop4; hop_host hostOps1; carried2))
macro "carried6" : tactic => `(tactic| (hop6; hop_host hostOps2; carried4))
macro "carried8" : tactic => `(tactic| (hop8; hop_host hostOps3; carried6))

end Cert.KernelIdeal.Transport

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«106309_j65171833749593_1_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.LibDenseLayer.lean ====
/-
  One dense layer (two matrix products sharing an output, plus a bias row), entry by entry; generic in the extents.

  A layer takes the neighbourhood means `a` and the nodes' own features `x` (both N × K), two K × D weight matrices
  and a bias row, and gives the N × D array whose entry (n, j) is

      Σ_k a(n,k) · wl(k,j)  +  Σ_k x(n,k) · wr(k,j)  +  b(j).

  The two programs group this sum differently: one adds the bias after both products, the other between them.
  Addition of extended reals is commutative and associative without any finiteness assumption, so the two groupings
  agree everywhere.
-/
import Idealize.ShloMosaic.PureOps.Ideal.Laws
import Idealize.ShloMosaic.Lib.ValueIdx
import Idealize.ShloMosaic.Lib.Pipeline.Value
import proofs.«106309_j65171833749593_1_alg».proof.Proof.LibPlainDotFormats
import proofs.«106309_j65171833749593_1_alg».proof.Proof.LibRowLayout

noncomputable section

namespace Cert.LibDenseLayer

open Idealize.ShloMosaic Idealize.ShloMosaic.ValueIdx Cert.LibPlainDot

variable {N K D : ℕ}

/-- Entry (n, j) of a dense layer: both products, then the bias of column j. -/
def dense (a x : (⟨2, ![N, K]⟩ : Shape).Idx → EReal) (wl wr : (⟨2, ![K, D]⟩ : Shape).Idx → EReal)
    (b : (⟨2, ![1, D]⟩ : Shape).Idx → EReal) : (⟨2, ![N, D]⟩ : Shape).Idx → EReal :=
  fun i => (∑ k : Fin K, a (ix2 (i 0) k) * wl (ix2 k (i 1)) + ∑ k : Fin K, x (ix2 (i 0) k) * wr (ix2 k (i 1)))
    + b (ix2 (0 : Fin 1) (i 1))

/-- The same layer followed by the rectifier: the larger of the entry and zero (zero kept as the f32 zero word). -/
def denseRelu (a x : (⟨2, ![N, K]⟩ : Shape).Idx → EReal) (wl wr : (⟨2, ![K, D]⟩ : Shape).Idx → EReal)
    (b : (⟨2, ![1, D]⟩ : Shape).Idx → EReal) : (⟨2, ![N, D]⟩ : Shape).Idx → EReal :=
  fun i => max (dense a x wl wr b i) (Ideal.ofBits .f32 0x00000000#32)

theorem dense_ix2 (a x : (⟨2, ![N, K]⟩ : Shape).Idx → EReal) (wl wr : (⟨2, ![K, D]⟩ : Shape).Idx → EReal)
    (b : (⟨2, ![1, D]⟩ : Shape).Idx → EReal) (n : Fin N) (j : Fin D) :
    dense a x wl wr b (ix2 n j)
      = (∑ k : Fin K, a (ix2 n k) * wl (ix2 k j) + ∑ k : Fin K, x (ix2 n k) * wr (ix2 k j)) + b (ix2 (0 : Fin 1) j) := rfl

/-- A vector [D] laid out as a row [1, D] by a broadcast along a new leading axis reads, at (u, j), entry j. -/
theorem bcast_vec_row_apply {α : Type} (h : (⟨1, ![D]⟩ : Shape).BroadcastsInDim ⟨2, ![1, D]⟩ (![1] : Fin 1 → Fin 2))
    (v : (⟨1, ![D]⟩ : Shape).Idx → α) (u : Fin 1) (j : Fin D) :
    broadcastInDim ⟨2, ![1, D]⟩ ![1] h v (ix2 u j) = v (ix1 j) := by
  refine broadcastInDim_apply _ h v _ (ix1 j) fun ax => ?_
  match ax with
  | ⟨0, _⟩ =>
    show j.val = if D = 1 then 0 else j.val
    split
    · have := j.isLt; omega
    · rfl

/-- A row [1, D] repeated over N rows reads, at (n, j), the row's entry j. -/
theorem bcast_row_rows_apply {α : Type} (h : (⟨2, ![1, D]⟩ : Shape).BroadcastsInDim ⟨2, ![N, D]⟩ (![0, 1] : Fin 2 → Fin 2))
    (r : (⟨2, ![1, D]⟩ : Shape).Idx → α) (n : Fin N) (j : Fin D) :
    broadcastInDim ⟨2, ![N, D]⟩ ![0, 1] h r (ix2 n j) = r (ix2 (0 : Fin 1) j) := by
  refine broadcastInDim_apply _ h r _ (ix2 (0 : Fin 1) j) fun ax => ?_
  match ax with
  | ⟨0, _⟩ => rfl
  | ⟨1, _⟩ =>
    show j.val = if D = 1 then 0 else j.val
    split
    · have := j.isLt; omega
    · rfl

/-- The host form of the layer — product, bias added, second product added — is `dense`: at an entry both
    contractions are plain sums over k, the doubly broadcast bias reads its entry j, and the three summands are
    regrouped by commutativity and associativity of addition on the extended reals. -/
theorem host_dense {Dd : DotDims ⟨2, ![N, K]⟩ ⟨2, ![K, D]⟩ ⟨2, ![N, D]⟩} (hD : Plain Dd)
    (a x : FVec Ideal ⟨2, ![N, K]⟩ .f32) (wl wr : FVec Ideal ⟨2, ![K, D]⟩ .f32) (b : FVec Ideal ⟨1, ![D]⟩ .f32)
    (h1 : (⟨1, ![D]⟩ : Shape).BroadcastsInDim ⟨2, ![1, D]⟩ (![1] : Fin 1 → Fin 2))
    (h2 : (⟨2, ![1, D]⟩ : Shape).BroadcastsInDim ⟨2, ![N, D]⟩ (![0, 1] : Fin 2 → Fin 2))
    (hc : (⟨1, ![D]⟩ : Shape).ShapeCasts ⟨2, ![1, D]⟩) :
    addf (addf (FloatOps.dotGeneral Dd none .single a wl)
        (broadcastInDim ⟨2, ![N, D]⟩ ![0, 1] h2 (broadcastInDim ⟨2, ![1, D]⟩ ![1] h1 b)))
      (FloatOps.dotGeneral Dd none .single x wr)
      = dense a x wl wr (shapeCast ⟨2, ![1, D]⟩ b hc) := by
  funext i
  obtain ⟨n, j, rfl⟩ : ∃ (n : Fin N) (j : Fin D), i = ix2 n j := ⟨i 0, i 1, eq_ix2 i⟩
  rw [addf_apply, addf_apply, hD.dotGeneral_apply, hD.dotGeneral_apply, bcast_row_rows_apply, bcast_vec_row_apply,
    dense_ix2, Cert.LibRowLayout.shapeCast_b_1b_apply]
  exact add_right_comm _ _ _

end Cert.LibDenseLayer

end
-- ==== Proof.Network.lean ====
/-
  The network both programs compute, as one function of the argument arrays.

  Two rounds of message passing on a bipartite graph (nodes of kinds p and d), then an edge decoder.
  A round maps the features of the two node kinds to new ones:

      new_d = relu( mean_{p→d}(old_p) · Wl + old_d · Wr + b ),     new_p likewise with the roles exchanged,

  where the neighbourhood mean (a gather along the edges, a scatter-add onto the targets, a division by the clamped
  in-degree) is the same operation in both programs and enters here as a function parameter.  The decoder gathers
  the final features at the two ends of each labelled edge, applies one dense layer whose weight matrix is cut
  into its top and bottom halves (one half per end), a rectifier, and one more linear layer and rectifier.

  Everything is stated entry by entry over the extended reals; zero is kept as the f32 zero word.
-/
import Idealize.ShloMosaic.PureOps.Ideal.Laws
import Idealize.ShloMosaic.Lib.ValueIdx
import Idealize.ShloMosaic.Lib.Pipeline.Value
import proofs.«106309_j65171833749593_1_alg».proof.Proof.LibDenseLayer

noncomputable section

namespace Cert.Network

open Idealize.ShloMosaic Idealize.ShloMosaic.ValueIdx Cert.LibDenseLayer

/-- A vector [D] read as a one-row array [1, D]: entry (0, j) is entry j. -/
def rowOf {D : ℕ} (b : (⟨1, ![D]⟩ : Shape).Idx → EReal) : (⟨2, ![1, D]⟩ : Shape).Idx → EReal :=
  fun i => b (ix1 (i 1))

/-- Rows off … off + A − 1 of an [R, C] array, as an [A, C] array. -/
def rowsFrom {R A C : ℕ} (off : ℕ) (h : off + A ≤ R) (x : (⟨2, ![R, C]⟩ : Shape).Idx → EReal) :
    (⟨2, ![A, C]⟩ : Shape).Idx → EReal :=
  fun i => x (ix2 (⟨off + (i 0).val, by have hi : (i 0).val < A := (i 0).isLt; omega⟩ : Fin R) (i 1))

/-- One linear layer with a bias row, then the rectifier: entry (n, j) is max(Σ_k h(n,k) · w(k,j) + b(j), 0). -/
def linRelu {N K D : ℕ} (h : (⟨2, ![N, K]⟩ : Shape).Idx → EReal) (w : (⟨2, ![K, D]⟩ : Shape).Idx → EReal)
    (b : (⟨2, ![1, D]⟩ : Shape).Idx → EReal) : (⟨2, ![N, D]⟩ : Shape).Idx → EReal :=
  fun i => max (∑ k : Fin K, h (ix2 (i 0) k) * w (ix2 k (i 1)) + b (ix2 (0 : Fin 1) (i 1))) (Ideal.ofBits .f32 0x00000000#32)

theorem linRelu_ix2 {N K D : ℕ} (h : (⟨2, ![N, K]⟩ : Shape).Idx → EReal) (w : (⟨2, ![K, D]⟩ : Shape).Idx → EReal)
    (b : (⟨2, ![1, D]⟩ : Shape).Idx → EReal) (n : Fin N) (j : Fin D) :
    linRelu h w b (ix2 n j)
      = max (∑ k : Fin K, h (ix2 n k) * w (ix2 k j) + b (ix2 (0 : Fin 1) j)) (Ideal.ofBits .f32 0x00000000#32) := rfl

theorem denseRelu_ix2 {N K D : ℕ} (a x : (⟨2, ![N, K]⟩ : Shape).Idx → EReal) (wl wr : (⟨2, ![K, D]⟩ : Shape).Idx → EReal)
    (b : (⟨2, ![1, D]⟩ : Shape).Idx → EReal) (n : Fin N) (j : Fin D) :
    denseRelu a x wl wr b (ix2 n j)
      = max ((∑ k : Fin K, a (ix2 n k) * wl (ix2 k j) + ∑ k : Fin K, x (ix2 n k) * wr (ix2 k j)) + b (ix2 (0 : Fin 1) j))
          (Ideal.ofBits .f32 0x00000000#32) := rfl

variable {NP ND EL K H : ℕ}

/-- The whole network.  `aggPD` / `aggDP` are the neighbourhood means along the p→d and d→p edges, `atRow` / `atCol`
    the gathers at the two ends of the labelled edges; `w1a` / `w1b` are the decoder's first weight matrix cut in halves. -/
def network
    (aggPD : ((⟨2, ![NP, K]⟩ : Shape).Idx → EReal) → (⟨2, ![ND, K]⟩ : Shape).Idx → EReal)
    (aggDP : ((⟨2, ![ND, K]⟩ : Shape).Idx → EReal) → (⟨2, ![NP, K]⟩ : Shape).Idx → EReal)
    (atRow : ((⟨2, ![NP, K]⟩ : Shape).Idx → EReal) → (⟨2, ![EL, K]⟩ : Shape).Idx → EReal)
    (atCol : ((⟨2, ![ND, K]⟩ : Shape).Idx → EReal) → (⟨2, ![EL, K]⟩ : Shape).Idx → EReal)
    (xp : (⟨2, ![NP, K]⟩ : Shape).Idx → EReal) (xd : (⟨2, ![ND, K]⟩ : Shape).Idx → EReal)
    (wl1pd : (⟨2, ![K, K]⟩ : Shape).Idx → EReal) (b1pd : (⟨2, ![1, K]⟩ : Shape).Idx → EReal) (wr1pd : (⟨2, ![K, K]⟩ : Shape).Idx → EReal)
    (wl1dp : (⟨2, ![K, K]⟩ : Shape).Idx → EReal) (b1dp : (⟨2, ![1, K]⟩ : Shape).Idx → EReal) (wr1dp : (⟨2, ![K, K]⟩ : Shape).Idx → EReal)
    (wl2pd : (⟨2, ![K, K]⟩ : Shape).Idx → EReal) (b2pd : (⟨2, ![1, K]⟩ : Shape).Idx → EReal) (wr2pd : (⟨2, ![K, K]⟩ : Shape).Idx → EReal)
    (wl2dp : (⟨2, ![K, K]⟩ : Shape).Idx → EReal) (b2dp : (⟨2, ![1, K]⟩ : Shape).Idx → EReal) (wr2dp : (⟨2, ![K, K]⟩ : Shape).Idx → EReal)
    (w1a w1b : (⟨2, ![K, H]⟩ : Shape).Idx → EReal) (b1 : (⟨2, ![1, H]⟩ : Shape).Idx → EReal)
    (w2 : (⟨2, ![H, 1]⟩ : Shape).Idx → EReal) (b2 : (⟨2, ![1, 1]⟩ : Shape).Idx → EReal) :
    (⟨2, ![EL, 1]⟩ : Shape).Idx → EReal :=
  let hd := denseRelu (aggPD xp) xd wl1pd wr1pd b1pd
  let hp := denseRelu (aggDP xd) xp wl1dp wr1dp b1dp
  let zd := denseRelu (aggPD hp) hd wl2pd wr2pd b2pd
  let zp := denseRelu (aggDP hd) hp wl2dp wr2dp b2dp
  linRelu (denseRelu (atRow zp) (atCol zd) w1a w1b b1) w2 b2

end Cert.Network

end
-- ==== Proof.RegionValue.lean ====
/-
  What each of the five pipelined regions leaves in its output array, as one function of the arrays it reads.

  Regions 0–3 each compute one dense layer with rectifier, on row tiles of 5000 rows.  At grid point t the body reads
  rows 5000·t … 5000·t + 4999 of the two feature arrays, the two 128 × 128 weight matrices and the 1 × 128 bias row
  whole, and writes rows 5000·t … 5000·t + 4999 of the output array.  Entry (p, q) of the block it writes is

      max( Σ_k a(p,k) · wl(k,q) + Σ_k x(p,k) · wr(k,q) + b(q), 0 ):

  each product contracts the second axis of its left operand against the first axis of its right operand into a zero
  accumulator; narrowing the operands to a shorter float format is the identity on extended reals; the bias row is
  repeated over the 5000 rows; the zero is the f32 zero word.  Entry (n, q) of a dense layer depends only on row n of
  the two feature arrays, so the block written at point t is the restriction to the tile's rows of the layer of the
  WHOLE arrays.  The tiles cover every row (row r lies in tile r / 5000: 10 tiles of a 50000-row array, 20 of a
  100000-row one), so the output array ends as the layer of the whole arrays.

  Region 4 follows the same layer by one more linear layer — a product with a 128 × 1 matrix, a 1 × 1 bias, the
  rectifier — on the 100 tiles of 5000 rows of a 500000-row array.  Entry (n, 0) of the result again depends only on
  row n of the two feature arrays, and the same argument gives the whole output array as that linear layer of the
  dense layer of the whole arrays.
-/
import proofs.«106309_j65171833749593_1_alg».proof.Proof.Gen.KernelIdeal.Frame
import proofs.«106309_j65171833749593_1_alg».proof.Proof.Network

set_option maxRecDepth 16384

noncomputable section

namespace Cert.KernelIdeal.RegionValue

open Idealize.ShloMosaic Idealize.ShloMosaic.TcCoe Cert.KernelIdeal Cert.KernelIdeal.Gen Cert.LibDenseLayer Cert.Network
open Idealize.ShloMosaic.ValueIdx Cert.LibPlainDot

/-! ## The bodies at an entry -/

/-- The layers' products contract the second axis of a 5000 × 128 operand against the first of a 128 × 128 one. -/
theorem plain128 : Plain dot_S5000x128_S128x128_S5000x128_1_0_0_1_n_n := ⟨rfl, rfl, rfl, rfl, rfl, rfl⟩

/-- The last product contracts the second axis of a 5000 × 128 operand against the first of a 128 × 1 one. -/
theorem plain128x1 : Plain dot_S5000x128_S128x1_S5000x1_1_0_0_1_n_n := ⟨rfl, rfl, rfl, rfl, rfl, rfl⟩

/-- Entry (p, q) of the block a dense-layer body writes (regions 0 and 1), from its five loaded blocks. -/
theorem pay_dense_apply (x0 x1 : Vec Ideal S5000x128 .f32) (x2 x4 : Vec Ideal S128x128 .f32) (x3 : Vec Ideal S1x128 .f32)
    (p : Fin 5000) (q : Fin 128) :
    k0_pay1 (F := Ideal) x0 x1 x2 x4 x3 (ix2 p q)
      = max ((∑ k : Fin 128, x0 (ix2 p k) * x2 (ix2 k q) + ∑ k : Fin 128, x1 (ix2 p k) * x4 (ix2 k q)) + x3 (ix2 (0 : Fin 1) q))
          (Ideal.ofBits .f32 0x00000000#32) := by
  unfold k0_pay1
  rw [maximumf_apply, addf_apply, addf_apply, broadcast_apply]
  refine congrArg₂ max (congrArg₂ (· + ·) (congrArg₂ (· + ·) ?_ ?_) ?_) rfl
  · exact (plain128.matmul_zero_apply_formats none _ _ p q).trans (by rw [shapeCast_self]; rfl)
  · exact plain128.matmul_zero_apply_formats none _ _ p q
  · exact (Cert.LibRowLayout.broadcastTo_1b_ab_apply _ _ p q).trans (by rw [shapeCast_self])

/-- The same for the bodies of regions 2 and 3 (they differ from the first two by an identity reshape). -/
theorem pay_dense_apply2 (x0 x1 : Vec Ideal S5000x128 .f32) (x2 x4 : Vec Ideal S128x128 .f32) (x3 : Vec Ideal S1x128 .f32)
    (p : Fin 5000) (q : Fin 128) :
    k2_pay1 (F := Ideal) x0 x1 x2 x4 x3 (ix2 p q)
      = max ((∑ k : Fin 128, x0 (ix2 p k) * x2 (ix2 k q) + ∑ k : Fin 128, x1 (ix2 p k) * x4 (ix2 k q)) + x3 (ix2 (0 : Fin 1) q))
          (Ideal.ofBits .f32 0x00000000#32) := by
  unfold k2_pay1
  rw [maximumf_apply, addf_apply, addf_apply, broadcast_apply]
  refine congrArg₂ max (congrArg₂ (· + ·) (congrArg₂ (· + ·) ?_ ?_) ?_) rfl
  · exact (plain128.matmul_zero_apply_formats none _ _ p q).trans (by rw [shapeCast_self]; rfl)
  · exact (plain128.matmul_zero_apply_formats none _ _ p q).trans (by rw [shapeCast_self]; rfl)
  · exact (Cert.LibRowLayout.broadcastTo_1b_ab_apply _ _ p q).trans (by rw [shapeCast_self])

/-- The zero offsets of a whole-block access. -/
theorem hz : (![0, 0] : Fin 2 → Nat) = fun _ => 0 := funext fun a => by fin_cases a <;> rfl

/-- A block function `f` with the dense layer's entries, of blocks that are rows of the whole feature arrays `A`, `X`
    (block row `j 0` is array row `i 0`) and the whole weights and bias, reads at `j` what the layer of the whole
    arrays reads at `i`, when `i` and `j` have the same column. -/
theorem dense_block {N : ℕ} (A X : (⟨2, ![N, 128]⟩ : Shape).Idx → EReal) (WL WR : S128x128.Idx → EReal) (B : S1x128.Idx → EReal)
    (x0 x1 : Vec Ideal S5000x128 .f32) (x2 x4 : Vec Ideal S128x128 .f32) (x3 : Vec Ideal S1x128 .f32)
    (f : S5000x128.Idx → EReal)
    (hf : ∀ (p : Fin 5000) (q : Fin 128), f (ix2 p q)
      = max ((∑ k : Fin 128, x0 (ix2 p k) * x2 (ix2 k q) + ∑ k : Fin 128, x1 (ix2 p k) * x4 (ix2 k q)) + x3 (ix2 (0 : Fin 1) q))
          (Ideal.ofBits .f32 0x00000000#32))
    (j : S5000x128.Idx) (i : (⟨2, ![N, 128]⟩ : Shape).Idx)
    (h0 : ∀ k : Fin 128, x0 (ix2 (j 0 : Fin 5000) k) = A (ix2 (i 0 : Fin N) k))
    (h1 : ∀ k : Fin 128, x1 (ix2 (j 0 : Fin 5000) k) = X (ix2 (i 0 : Fin N) k))
    (h2 : x2 = WL) (h4 : x4 = WR) (h3 : x3 = B) (hc : (i 1).val = (j 1).val) :
    f j = denseRelu A X WL WR B i := by
  subst h2 h4 h3
  obtain ⟨p, q, rfl⟩ : ∃ (p : Fin 5000) (q : Fin 128), j = ix2 p q := ⟨j 0, j 1, eq_ix2 j⟩
  have hq : (i 1 : Fin 128) = q := Fin.ext hc
  have h0' : ∀ k : Fin 128, x0 (ix2 p k) = A (ix2 (i 0 : Fin N) k) := h0
  have h1' : ∀ k : Fin 128, x1 (ix2 p k) = X (ix2 (i 0 : Fin N) k) := h1
  rw [hf]
  simp only [h0', h1']
  show _ = max ((∑ k : Fin 128, A (ix2 (i 0) k) * x2 (ix2 k (i 1)) + ∑ k : Fin 128, X (ix2 (i 0) k) * x4 (ix2 k (i 1))) + x3 (ix2 (0 : Fin 1) (i 1))) _
  rw [hq]

/-- Entry (p, 0) of the block region 4's body writes, from its seven loaded blocks: the dense layer's row p against
    the 128 × 1 matrix, plus the 1 × 1 bias, rectified. -/
theorem pay_decoder_apply (x0 x1 : Vec Ideal S5000x128 .f32) (x2 x3 : Vec Ideal S128x128 .f32) (x4 : Vec Ideal S1x128 .f32)
    (x5 : Vec Ideal S128x1 .f32) (x6 : Vec Ideal S1x1 .f32) (p : Fin 5000) (q : Fin 1) :
    k4_pay1 (F := Ideal) x0 x1 x2 x3 x4 x5 x6 (ix2 p q)
      = max (∑ k : Fin 128,
              max ((∑ l : Fin 128, x0 (ix2 p l) * x2 (ix2 l k) + ∑ l : Fin 128, x1 (ix2 p l) * x3 (ix2 l k)) + x4 (ix2 (0 : Fin 1) k))
                  (Ideal.ofBits .f32 0x00000000#32) * x5 (ix2 k q)
            + x6 (ix2 (0 : Fin 1) q))
          (Ideal.ofBits .f32 0x00000000#32) := by
  unfold k4_pay1
  rw [maximumf_apply, addf_apply, broadcast_apply]
  refine congrArg₂ max (congrArg₂ (· + ·) ?_ ?_) rfl
  · refine (plain128x1.matmul_zero_apply_formats none _ _ p q).trans (Finset.sum_congr rfl fun k _ => congrArg₂ (· * ·) ?_ rfl)
    rw [truncf_apply, maximumf_apply, addf_apply, addf_apply, broadcast_apply]
    refine congrArg₂ max (congrArg₂ (· + ·) (congrArg₂ (· + ·) ?_ ?_) ?_) rfl
    · exact (plain128.matmul_zero_apply_formats none _ _ p k).trans (by rw [shapeCast_self, shapeCast_self]; rfl)
    · exact (plain128.matmul_zero_apply_formats none _ _ p k).trans (by rw [shapeCast_self, shapeCast_self]; rfl)
    · exact (Cert.LibRowLayout.broadcastTo_1b_ab_apply _ _ p k).trans (by rw [shapeCast_self])
  · exact (Cert.LibRowLayout.broadcastTo_1b_ab_apply _ _ p q).trans (by rw [shapeCast_self])

/-- Region 4's block at `j` is the linear layer of the dense layer of the whole arrays at `i`, when block row `j 0` of
    the two feature blocks is row `i 0` of the whole arrays and the small operands are whole. -/
theorem decoder_block {N : ℕ} (A X : (⟨2, ![N, 128]⟩ : Shape).Idx → EReal) (WL WR : S128x128.Idx → EReal) (B : S1x128.Idx → EReal)
    (W2 : S128x1.Idx → EReal) (B2 : S1x1.Idx → EReal)
    (x0 x1 : Vec Ideal S5000x128 .f32) (x2 x3 : Vec Ideal S128x128 .f32) (x4 : Vec Ideal S1x128 .f32)
    (x5 : Vec Ideal S128x1 .f32) (x6 : Vec Ideal S1x1 .f32)
    (j : S5000x1.Idx) (i : (⟨2, ![N, 1]⟩ : Shape).Idx)
    (h0 : ∀ k : Fin 128, x0 (ix2 (j 0 : Fin 5000) k) = A (ix2 (i 0 : Fin N) k))
    (h1 : ∀ k : Fin 128, x1 (ix2 (j 0 : Fin 5000) k) = X (ix2 (i 0 : Fin N) k))
    (h2 : x2 = WL) (h3 : x3 = WR) (h4 : x4 = B) (h5 : x5 = W2) (h6 : x6 = B2) :
    k4_pay1 (F := Ideal) x0 x1 x2 x3 x4 x5 x6 j = linRelu (denseRelu A X WL WR B) W2 B2 i := by
  subst h2 h3 h4 h5 h6
  obtain ⟨p, q, rfl⟩ : ∃ (p : Fin 5000) (q : Fin 1), j = ix2 p q := ⟨j 0, j 1, eq_ix2 j⟩
  have hq : (i 1 : Fin 1) = q := Subsingleton.elim (α := Fin 1) _ _
  have h0' : ∀ k : Fin 128, x0 (ix2 p k) = A (ix2 (i 0 : Fin N) k) := h0
  have h1' : ∀ k : Fin 128, x1 (ix2 p k) = X (ix2 (i 0 : Fin N) k) := h1
  rw [pay_decoder_apply]
  simp only [h0', h1']
  show _ = max (∑ k : Fin 128,
              max ((∑ l : Fin 128, A (ix2 (i 0) l) * x2 (ix2 l k) + ∑ l : Fin 128, X (ix2 (i 0) l) * x3 (ix2 l k)) + x4 (ix2 (0 : Fin 1) k))
                  (Ideal.ofBits .f32 0x00000000#32) * x5 (ix2 k (i 1))
            + x6 (ix2 (0 : Fin 1) (i 1))) _
  rw [hq]

variable (V : (c : Dev nD) → (b : Ref sig .tc) → Buf (Elt Ideal) ((c : Thread nD τ).loc b))

/-! ## Region 0 -/

/-- Where each window's block sits at point t: the two feature windows and the output window at row tile t, the
    weights and biases at their only block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is the tile-t rows of the layer of the whole arrays. -/
theorem flushed0_eq (c : Dev nD) (t : Fin cfg0.N) :
    (dat0 (F := Ideal) V c).flushed 5 t = ((cfg0.win 5).blk t).view.read (Elt Ideal)
      (denseRelu (N := 50000) (K := 128) (D := 128) (V c main_v17) (V c main_arg1) (V c main_arg2) (V c main_arg4) (V c main_v18)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts0 t
  funext j
  show k0_pay1 (F := Ideal) (iblk0 V c 0 t) (iblk0 V c 1 t) (iblk0 V c 2 t) (iblk0 V c 4 t) (iblk0 V c 3 t) j
    = denseRelu (N := 50000) (K := 128) (D := 128) (V c main_v17) (V c main_arg1) (V c main_arg2) (V c main_arg4) (V c main_v18) (((cfg0.win 5).blk t).view.emb j)
  refine dense_block (V c main_v17) (V c main_arg1) (V c main_arg2) (V c main_arg4) (V c main_v18)
    (iblk0 V c 0 t) (iblk0 V c 1 t) (iblk0 V c 2 t) (iblk0 V c 4 t) (iblk0 V c 3 t)
    (k0_pay1 (F := Ideal) (iblk0 V c 0 t) (iblk0 V c 1 t) (iblk0 V c 2 t) (iblk0 V c 4 t) (iblk0 V c 3 t))
    (pay_dense_apply (iblk0 V c 0 t) (iblk0 V c 1 t) (iblk0 V c 2 t) (iblk0 V c 4 t) (iblk0 V c 3 t))
    j (((cfg0.win 5).blk t).view.emb j) ?_ ?_ ?_ ?_ ?_ ?_
  · intro k
    show V c main_v17 (((cfg0.win 0).blk t).view.emb (ix2 (j 0) k)) = _
    congr 1
    funext a; apply Fin.ext
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  · intro k
    show V c main_arg1 (((cfg0.win 1).blk t).view.emb (ix2 (j 0) k)) = _
    congr 1
    funext a; apply Fin.ext
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  · funext y
    show V c main_arg2 (((cfg0.win 2).blk t).view.emb y) = _
    congr 1
    funext a; apply Fin.ext
    match a with
    | ⟨0, _⟩ => show win0_2.index t (0 : Fin 2) * 128 + 1 * (y 0).val = (y 0).val; omega
    | ⟨1, _⟩ => show win0_2.index t (1 : Fin 2) * 128 + 1 * (y 1).val = (y 1).val; omega
  · funext y
    show V c main_arg4 (((cfg0.win 4).blk t).view.emb y) = _
    congr 1
    funext a; apply Fin.ext
    match a with
    | ⟨0, _⟩ => show win0_4.index t (0 : Fin 2) * 128 + 1 * (y 0).val = (y 0).val; omega
    | ⟨1, _⟩ => show win0_4.index t (1 : Fin 2) * 128 + 1 * (y 1).val = (y 1).val; omega
  · funext y
    show V c main_v18 (((cfg0.win 3).blk t).view.emb y) = _
    congr 1
    funext a; apply Fin.ext
    match a with
    | ⟨0, _⟩ => show win0_3.index t (0 : Fin 2) * 1 + 1 * (y 0).val = (y 0).val; omega
    | ⟨1, _⟩ => show win0_3.index t (1 : Fin 2) * 128 + 1 * (y 1).val = (y 1).val; omega
  · show win0_5.index t (1 : Fin 2) * 128 + 1 * (j 1).val = (j 1).val
    omega

/-- An index of the output array lies in point t's block iff each coordinate lies in the block's range. -/
theorem mem_blk0 (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v19).slice (win0_5.rect t)).set ↔ _
  rw [View.set_slice_whole, Rect.mem_set_unit]
  exact Iff.rfl

/-- Every index of the output array lies in the block of the point r / 5000, r its row. -/
theorem cover0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, -, -, -, -, -, -, e50, e51⟩ := idx_facts0 ⟨(i 0).val / 5000, ht⟩
  refine ⟨⟨(i 0).val / 5000, ht⟩, flush0_5 _, ?_⟩
  rw [mem_blk0]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    rw [e51]; omega

/-- The output array after region 0. -/
theorem final0 (c : Dev nD) :
    (dat0 (F := Ideal) V c).arrAt 5 cfg0.N
      = denseRelu (N := 50000) (K := 128) (D := 128) (V c main_v17) (V c main_arg1) (V c main_arg2) (V c main_arg4) (V c main_v18) :=
  (dat0 (F := Ideal) V c).arrAt_eq_of_cover 5 _ (fun t _ => flushed0_eq V c t) cover0

/-! ## Region 1 -/

/-- Where each window's block sits at point t: the two feature windows and the output window at row tile t, the
    weights and biases at their only block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is the tile-t rows of the layer of the whole arrays. -/
theorem flushed1_eq (c : Dev nD) (t : Fin cfg1.N) :
    (dat1 (F := Ideal) V c).flushed 5 t = ((cfg1.win 5).blk t).view.read (Elt Ideal)
      (denseRelu (N := 100000) (K := 128) (D := 128) (V c main_v37) (V c main_arg0) (V c main_arg5) (V c main_arg7) (V c main_v38)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts1 t
  funext j
  show k1_pay1 (F := Ideal) (iblk1 V c 0 t) (iblk1 V c 1 t) (iblk1 V c 2 t) (iblk1 V c 4 t) (iblk1 V c 3 t) j
    = denseRelu (N := 100000) (K := 128) (D := 128) (V c main_v37) (V c main_arg0) (V c main_arg5) (V c main_arg7) (V c main_v38) (((cfg1.win 5).blk t).view.emb j)
  refine dense_block (V c main_v37) (V c main_arg0) (V c main_arg5) (V c main_arg7) (V c main_v38)
    (iblk1 V c 0 t) (iblk1 V c 1 t) (iblk1 V c 2 t) (iblk1 V c 4 t) (iblk1 V c 3 t)
    (k1_pay1 (F := Ideal) (iblk1 V c 0 t) (iblk1 V c 1 t) (iblk1 V c 2 t) (iblk1 V c 4 t) (iblk1 V c 3 t))
    (pay_dense_apply (iblk1 V c 0 t) (iblk1 V c 1 t) (iblk1 V c 2 t) (iblk1 V c 4 t) (iblk1 V c 3 t))
    j (((cfg1.win 5).blk t).view.emb j) ?_ ?_ ?_ ?_ ?_ ?_
  · intro k
    show V c main_v37 (((cfg1.win 0).blk t).view.emb (ix2 (j 0) k)) = _
    congr 1
    funext a; apply Fin.ext
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  · intro k
    show V c main_arg0 (((cfg1.win 1).blk t).view.emb (ix2 (j 0) k)) = _
    congr 1
    funext a; apply Fin.ext
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  · funext y
    show V c main_arg5 (((cfg1.win 2).blk t).view.emb y) = _
    congr 1
    funext a; apply Fin.ext
    match a with
    | ⟨0, _⟩ => show win1_2.index t (0 : Fin 2) * 128 + 1 * (y 0).val = (y 0).val; omega
    | ⟨1, _⟩ => show win1_2.index t (1 : Fin 2) * 128 + 1 * (y 1).val = (y 1).val; omega
  · funext y
    show V c main_arg7 (((cfg1.win 4).blk t).view.emb y) = _
    congr 1
    funext a; apply Fin.ext
    match a with
    | ⟨0, _⟩ => show win1_4.index t (0 : Fin 2) * 128 + 1 * (y 0).val = (y 0).val; omega
    | ⟨1, _⟩ => show win1_4.index t (1 : Fin 2) * 128 + 1 * (y 1).val = (y 1).val; omega
  · funext y
    show V c main_v38 (((cfg1.win 3).blk t).view.emb y) = _
    congr 1
    funext a; apply Fin.ext
    match a with
    | ⟨0, _⟩ => show win1_3.index t (0 : Fin 2) * 1 + 1 * (y 0).val = (y 0).val; omega
    | ⟨1, _⟩ => show win1_3.index t (1 : Fin 2) * 128 + 1 * (y 1).val = (y 1).val; omega
  · show win1_5.index t (1 : Fin 2) * 128 + 1 * (j 1).val = (j 1).val
    omega

/-- An index of the output array lies in point t's block iff each coordinate lies in the block's range. -/
theorem mem_blk1 (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v39).slice (win1_5.rect t)).set ↔ _
  rw [View.set_slice_whole, Rect.mem_set_unit]
  exact Iff.rfl

/-- Every index of the output array lies in the block of the point r / 5000, r its row. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨-, -, -, -, -, -, -, -, -, -, e50, e51⟩ := idx_facts1 ⟨(i 0).val / 5000, ht⟩
  refine ⟨⟨(i 0).val / 5000, ht⟩, flush1_5 _, ?_⟩
  rw [mem_blk1]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    rw [e51]; omega

/-- The output array after region 1. -/
theorem final1 (c : Dev nD) :
    (dat1 (F := Ideal) V c).arrAt 5 cfg1.N
      = denseRelu (N := 100000) (K := 128) (D := 128) (V c main_v37) (V c main_arg0) (V c main_arg5) (V c main_arg7) (V c main_v38) :=
  (dat1 (F := Ideal) V c).arrAt_eq_of_cover 5 _ (fun t _ => flushed1_eq V c t) cover1

/-! ## Region 2 -/

/-- Where each window's block sits at point t: the two feature windows and the output window at row tile t, the
    weights and biases at their only block. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point t writes back is the tile-t rows of the layer of the whole arrays. -/
theorem flushed2_eq (c : Dev nD) (t : Fin cfg2.N) :
    (dat2 (F := Ideal) V c).flushed 5 t = ((cfg2.win 5).blk t).view.read (Elt Ideal)
      (denseRelu (N := 50000) (K := 128) (D := 128) (V c main_v57) (V c main_v19) (V c main_arg8) (V c main_arg10) (V c main_v58)) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts2 t
  funext j
  show k2_pay1 (F := Ideal) (iblk2 V c 0 t) (iblk2 V c 1 t) (iblk2 V c 2 t) (iblk2 V c 4 t) (iblk2 V c 3 t) j
    = denseRelu (N := 50000) (K := 128) (D := 128) (V c main_v57) (V c main_v19) (V c main_arg8) (V c main_arg10) (V c main_v58) (((cfg2.win 5).blk t).view.emb j)
  refine dense_block (V c main_v57) (V c main_v19) (V c main_arg8) (V c main_arg10) (V c main_v58)
    (iblk2 V c 0 t) (iblk2 V c 1 t) (iblk2 V c 2 t) (iblk2 V c 4 t) (iblk2 V c 3 t)
    (k2_pay1 (F := Ideal) (iblk2 V c 0 t) (iblk2 V c 1 t) (iblk2 V c 2 t) (iblk2 V c 4 t) (iblk2 V c 3 t))
    (pay_dense_apply2 (iblk2 V c 0 t) (iblk2 V c 1 t) (iblk2 V c 2 t) (iblk2 V c 4 t) (iblk2 V c 3 t))
    j (((cfg2.win 5).blk t).view.emb j) ?_ ?_ ?_ ?_ ?_ ?_
  · intro k
    show V c main_v57 (((cfg2.win 0).blk t).view.emb (ix2 (j 0) k)) = _
    congr 1
    funext a; apply Fin.ext
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 128 + 1 * k.val = k.val; omega
  · intro k
    show V c main_v19 (((cfg2.win 1).blk t).view.emb (ix2 (j 0) k)) = _
    congr 1
    funext a; apply Fin.ext
    match a with
    | ⟨0, _⟩ => show win2_1.index t (0 : Fin 2) * 5000 + 1 * (j 0).val = win2_5.index t (0 : Fin 2) * 5000 + 1 * (j 0).val; omega
    | ⟨1, _⟩ => show win2_1.index t (1 : Fin 2) * 128 + 1 * k.val = k.val; omega
  · funext y
    show V c main_arg8 (((cfg2.win 2).blk t).view.emb y) = _
    congr 1
    funext a; apply Fin.ext
    match a with
    | ⟨0, _⟩ => show win2_2.index t (0 : Fin 2) * 128 + 1 * (y 0).val = (y 0).val; omega
    | ⟨1, _⟩ => show win2_2.index t (1 : Fin 2) * 128 + 1 * (y 1).val = (y 1).val; omega
  · funext y
    show V c main_arg10 (((cfg2.win 4).blk t).view.emb y) = _
    congr 1
    funext a; apply Fin.ext
    match a with
    | ⟨0, _⟩ => show win2_4.index t (0 : Fin 2) * 128 + 1 * (y 0).val = (y 0).val; omega
    | ⟨1, _⟩ => show win2_4.index t (1 : Fin 2) * 128 + 1 * (y 1).val = (y 1).val; omega
  · funext y
    show V c main_v58 (((cfg2.win 3).blk t).view.emb y) = _
    congr 1
    funext a; apply Fin.ext
    match a with
    | ⟨0, _⟩ => show win2_3.index t (0 : Fin 2) * 1 + 1 * (y 0).val = (y 0).val; omega
    | ⟨1, _⟩ => show win2_3.index t (1 : Fin 2) * 128 + 1 * (y 1).val = (y 1).val; omega
  · show win2_5.index t (1 : Fin 2) * 128 + 1 * (j 1).val = (j 1).val
    omega

/-- An index of the output array lies in point t's block iff each coordinate lies in the block's range. -/
theorem mem_blk2 (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v59).slice (win2_5.rect t)).set ↔ _
  rw [View.set_slice_whole, Rect.mem_set_unit]
  exact Iff.rfl

/-- Every index of the output array lies in the block of the point r / 5000, r its row. -/
theorem cover2 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  have ht : (i 0).val / 5000 < cfg2.N := by rw [hN]; omega
  obtain ⟨-, -, -, -, -, -, -, -, -, -, e50, e51⟩ := idx_facts2 ⟨(i 0).val / 5000, ht⟩
  refine ⟨⟨(i 0).val / 5000, ht⟩, flush2_5 _, ?_⟩
  rw [mem_blk2]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win2_5.index ⟨(i 0).val / 5000, ht⟩ (1 : Fin 2) * 128 ≤ (i 1).val
      ∧ (i 1).val < win2_5.index ⟨(i 0).val / 5000, ht⟩ (1 : Fin 2) * 128 + 128
    rw [e51]; omega

/-- The output array after region 2. -/
theorem final2 (c : Dev nD) :
    (dat2 (F := Ideal) V c).arrAt 5 cfg2.N
      = denseRelu (N := 50000) (K := 128) (D := 128) (V c main_v57) (V c main_v19) (V c main_arg8) (V c main_arg10) (V c main_v58) :=
  (dat2 (F := Ideal) V c).arrAt_eq_of_cover 5 _ (fun t _ => flushed2_eq V c t) cover2

/-! ## Region 3 -/

/-- Where each window's block sits at point t: the two feature windows and the output window at row tile t, the
    weights and biases at their only block. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What point t writes back is the tile-t rows of the layer of the whole arrays. -/
theorem flushed3_eq (c : Dev nD) (t : Fin cfg3.N) :
    (dat3 (F := Ideal) V c).flushed 5 t = ((cfg3.win 5).blk t).view.read (Elt Ideal)
      (denseRelu (N := 100000) (K := 128) (D := 128) (V c main_v77) (V c main_v39) (V c main_arg11) (V c main_arg13) (V c main_v78)) := by
  show (cfg3.win 5).cut (grid3.coords t) ((dat3 V c).after 5 t) = _
  rw [after3_5]
  unfold out3_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts3 t
  funext j
  show k3_pay1 (F := Ideal) (iblk3 V c 0 t) (iblk3 V c 1 t) (iblk3 V c 2 t) (iblk3 V c 4 t) (iblk3 V c 3 t) j
    = denseRelu (N := 100000) (K := 128) (D := 128) (V c main_v77) (V c main_v39) (V c main_arg11) (V c main_arg13) (V c main_v78) (((cfg3.win 5).blk t).view.emb j)
  refine dense_block (V c main_v77) (V c main_v39) (V c main_arg11) (V c main_arg13) (V c main_v78)
    (iblk3 V c 0 t) (iblk3 V c 1 t) (iblk3 V c 2 t) (iblk3 V c 4 t) (iblk3 V c 3 t)
    (k3_pay1 (F := Ideal) (iblk3 V c 0 t) (iblk3 V c 1 t) (iblk3 V c 2 t) (iblk3 V c 4 t) (iblk3 V c 3 t))
    (pay_dense_apply2 (iblk3 V c 0 t) (iblk3 V c 1 t) (iblk3 V c 2 t) (iblk3 V c 4 t) (iblk3 V c 3 t))
    j (((cfg3.win 5).blk t).view.emb j) ?_ ?_ ?_ ?_ ?_ ?_
  · intro k
    show V c main_v77 (((cfg3.win 0).blk t).view.emb (ix2 (j 0) k)) = _
    congr 1
    funext a; apply Fin.ext
    match a with
    | ⟨0, _⟩ => show win3_0.index t (0 : Fin 2) * 5000 + 1 * (j 0).val = win3_5.index t (0 : Fin 2) * 5000 + 1 * (j 0).val; omega
    | ⟨1, _⟩ => show win3_0.index t (1 : Fin 2) * 128 + 1 * k.val = k.val; omega
  · intro k
    show V c main_v39 (((cfg3.win 1).blk t).view.emb (ix2 (j 0) k)) = _
    congr 1
    funext a; apply Fin.ext
    match a with
    | ⟨0, _⟩ => show win3_1.index t (0 : Fin 2) * 5000 + 1 * (j 0).val = win3_5.index t (0 : Fin 2) * 5000 + 1 * (j 0).val; omega
    | ⟨1, _⟩ => show win3_1.index t (1 : Fin 2) * 128 + 1 * k.val = k.val; omega
  · funext y
    show V c main_arg11 (((cfg3.win 2).blk t).view.emb y) = _
    congr 1
    funext a; apply Fin.ext
    match a with
    | ⟨0, _⟩ => show win3_2.index t (0 : Fin 2) * 128 + 1 * (y 0).val = (y 0).val; omega
    | ⟨1, _⟩ => show win3_2.index t (1 : Fin 2) * 128 + 1 * (y 1).val = (y 1).val; omega
  · funext y
    show V c main_arg13 (((cfg3.win 4).blk t).view.emb y) = _
    congr 1
    funext a; apply Fin.ext
    match a with
    | ⟨0, _⟩ => show win3_4.index t (0 : Fin 2) * 128 + 1 * (y 0).val = (y 0).val; omega
    | ⟨1, _⟩ => show win3_4.index t (1 : Fin 2) * 128 + 1 * (y 1).val = (y 1).val; omega
  · funext y
    show V c main_v78 (((cfg3.win 3).blk t).view.emb y) = _
    congr 1
    funext a; apply Fin.ext
    match a with
    | ⟨0, _⟩ => show win3_3.index t (0 : Fin 2) * 1 + 1 * (y 0).val = (y 0).val; omega
    | ⟨1, _⟩ => show win3_3.index t (1 : Fin 2) * 128 + 1 * (y 1).val = (y 1).val; omega
  · show win3_5.index t (1 : Fin 2) * 128 + 1 * (j 1).val = (j 1).val
    omega

/-- An index of the output array lies in point t's block iff each coordinate lies in the block's range. -/
theorem mem_blk3 (t : Fin cfg3.N) (i : S100000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v79).slice (win3_5.rect t)).set ↔ _
  rw [View.set_slice_whole, Rect.mem_set_unit]
  exact Iff.rfl

/-- Every index of the output array lies in the block of the point r / 5000, r its row. -/
theorem cover3 (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 20 := N_3
  have ht : (i 0).val / 5000 < cfg3.N := by rw [hN]; omega
  obtain ⟨-, -, -, -, -, -, -, -, -, -, e50, e51⟩ := idx_facts3 ⟨(i 0).val / 5000, ht⟩
  refine ⟨⟨(i 0).val / 5000, ht⟩, flush3_5 _, ?_⟩
  rw [mem_blk3]
  intro a
  match a with
  | ⟨0, _⟩ =>
    show win3_5.index ⟨(i 0).val / 5000, ht⟩ (0 : Fin 2) * 5000 ≤ (i 0).val
      ∧ (i 0).val < win3_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win3_5.index ⟨(i 0).val / 5000, ht⟩ (1 : Fin 2) * 128 ≤ (i 1).val
      ∧ (i 1).val < win3_5.index ⟨(i 0).val / 5000, ht⟩ (1 : Fin 2) * 128 + 128
    rw [e51]; omega

/-- The output array after region 3. -/
theorem final3 (c : Dev nD) :
    (dat3 (F := Ideal) V c).arrAt 5 cfg3.N
      = denseRelu (N := 100000) (K := 128) (D := 128) (V c main_v77) (V c main_v39) (V c main_arg11) (V c main_arg13) (V c main_v78) :=
  (dat3 (F := Ideal) V c).arrAt_eq_of_cover 5 _ (fun t _ => flushed3_eq V c t) cover3

/-! ## Region 4 -/

/-- Where each window's block sits at point t: the two feature windows and the output window at row tile t, the
    weights and biases at their only block. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- What point t writes back is the tile-t rows of the layer of the whole arrays. -/
theorem flushed4_eq (c : Dev nD) (t : Fin cfg4.N) :
    (dat4 (F := Ideal) V c).flushed 7 t = ((cfg4.win 7).blk t).view.read (Elt Ideal)
      (linRelu (N := 500000) (K := 128) (D := 1)
          (denseRelu (N := 500000) (K := 128) (D := 128) (V c main_v86) (V c main_v93) (V c main_v94) (V c main_v95) (V c main_v96))
          (V c main_arg16) (V c main_v97)) := by
  show (cfg4.win 7).cut (grid4.coords t) ((dat4 V c).after 7 t) = _
  rw [after4_7]
  unfold out4_7
  rw [View.canon_unit_zero hz]
  simp only [View.ld_unit_zero (S := S5000x128) hz, View.ld_unit_zero (S := S128x128) hz, View.ld_unit_zero (S := S1x128) hz,
    View.ld_unit_zero (S := S128x1) hz, View.ld_unit_zero (S := S1x1) hz]
  obtain ⟨e00, e01, e10, e11, e20, e21, e30, e31, e40, e41, e50, e51, e60, e61, e70, e71⟩ := idx_facts4 t
  funext j
  show k4_pay1 (F := Ideal) (iblk4 V c 0 t) (iblk4 V c 1 t) (iblk4 V c 2 t) (iblk4 V c 3 t) (iblk4 V c 4 t) (iblk4 V c 5 t) (iblk4 V c 6 t) j
    = (linRelu (N := 500000) (K := 128) (D := 1)
          (denseRelu (N := 500000) (K := 128) (D := 128) (V c main_v86) (V c main_v93) (V c main_v94) (V c main_v95) (V c main_v96))
          (V c main_arg16) (V c main_v97)) (((cfg4.win 7).blk t).view.emb j)
  refine decoder_block (V c main_v86) (V c main_v93) (V c main_v94) (V c main_v95) (V c main_v96) (V c main_arg16) (V c main_v97)
    (iblk4 V c 0 t) (iblk4 V c 1 t) (iblk4 V c 2 t) (iblk4 V c 3 t) (iblk4 V c 4 t) (iblk4 V c 5 t) (iblk4 V c 6 t)
    j (((cfg4.win 7).blk t).view.emb j) ?_ ?_ ?_ ?_ ?_ ?_ ?_
  · intro k
    show V c main_v86 (((cfg4.win 0).blk t).view.emb (ix2 (j 0) k)) = _
    congr 1
    funext a; apply Fin.ext
    match a with
    | ⟨0, _⟩ => show win4_0.index t (0 : Fin 2) * 5000 + 1 * (j 0).val = win4_7.index t (0 : Fin 2) * 5000 + 1 * (j 0).val; omega
    | ⟨1, _⟩ => show win4_0.index t (1 : Fin 2) * 128 + 1 * k.val = k.val; omega
  · intro k
    show V c main_v93 (((cfg4.win 1).blk t).view.emb (ix2 (j 0) k)) = _
    congr 1
    funext a; apply Fin.ext
    match a with
    | ⟨0, _⟩ => show win4_1.index t (0 : Fin 2) * 5000 + 1 * (j 0).val = win4_7.index t (0 : Fin 2) * 5000 + 1 * (j 0).val; omega
    | ⟨1, _⟩ => show win4_1.index t (1 : Fin 2) * 128 + 1 * k.val = k.val; omega
  · funext y
    show V c main_v94 (((cfg4.win 2).blk t).view.emb y) = _
    congr 1
    funext a; apply Fin.ext
    match a with
    | ⟨0, _⟩ => show win4_2.index t (0 : Fin 2) * 128 + 1 * (y 0).val = (y 0).val; omega
    | ⟨1, _⟩ => show win4_2.index t (1 : Fin 2) * 128 + 1 * (y 1).val = (y 1).val; omega
  · funext y
    show V c main_v95 (((cfg4.win 3).blk t).view.emb y) = _
    congr 1
    funext a; apply Fin.ext
    match a with
    | ⟨0, _⟩ => show win4_3.index t (0 : Fin 2) * 128 + 1 * (y 0).val = (y 0).val; omega
    | ⟨1, _⟩ => show win4_3.index t (1 : Fin 2) * 128 + 1 * (y 1).val = (y 1).val; omega
  · funext y
    show V c main_v96 (((cfg4.win 4).blk t).view.emb y) = _
    congr 1
    funext a; apply Fin.ext
    match a with
    | ⟨0, _⟩ => show win4_4.index t (0 : Fin 2) * 1 + 1 * (y 0).val = (y 0).val; omega
    | ⟨1, _⟩ => show win4_4.index t (1 : Fin 2) * 128 + 1 * (y 1).val = (y 1).val; omega
  · funext y
    show V c main_arg16 (((cfg4.win 5).blk t).view.emb y) = _
    congr 1
    funext a; apply Fin.ext
    match a with
    | ⟨0, _⟩ => show win4_5.index t (0 : Fin 2) * 128 + 1 * (y 0).val = (y 0).val; omega
    | ⟨1, _⟩ => show win4_5.index t (1 : Fin 2) * 1 + 1 * (y 1).val = (y 1).val; omega
  · funext y
    show V c main_v97 (((cfg4.win 6).blk t).view.emb y) = _
    congr 1
    funext a; apply Fin.ext
    match a with
    | ⟨0, _⟩ => show win4_6.index t (0 : Fin 2) * 1 + 1 * (y 0).val = (y 0).val; omega
    | ⟨1, _⟩ => show win4_6.index t (1 : Fin 2) * 1 + 1 * (y 1).val = (y 1).val; omega

/-- An index of the output array lies in point t's block iff each coordinate lies in the block's range. -/
theorem mem_blk4 (t : Fin cfg4.N) (i : S500000x1.Idx) :
    i ∈ ((cfg4.win 7).blk t).view.set ↔ ∀ a : Fin 2, win4_7.index t a * S5000x1.size a ≤ (i a).val
      ∧ (i a).val < win4_7.index t a * S5000x1.size a + S5000x1.size a := by
  show i ∈ ((View.whole main_v98).slice (win4_7.rect t)).set ↔ _
  rw [View.set_slice_whole, Rect.mem_set_unit]
  exact Iff.rfl

/-- Every index of the output array lies in the block of the point r / 5000, r its row. -/
theorem cover4 (i : S500000x1.Idx) :
    ∃ t : Fin cfg4.N, (cfg4.win 7).flush t = true ∧ i ∈ ((cfg4.win 7).blk t).view.set := by
  have hi0 : (i 0).val < 500000 := (i 0).isLt
  have hi1 : (i 1).val < 1 := (i 1).isLt
  have hN : cfg4.N = 100 := N_4
  have ht : (i 0).val / 5000 < cfg4.N := by rw [hN]; omega
  obtain ⟨-, -, -, -, -, -, -, -, -, -, -, -, -, -, e70, e71⟩ := idx_facts4 ⟨(i 0).val / 5000, ht⟩
  refine ⟨⟨(i 0).val / 5000, ht⟩, flush4_7 _, ?_⟩
  rw [mem_blk4]
  intro a
  match a with
  | ⟨0, _⟩ =>
    show win4_7.index ⟨(i 0).val / 5000, ht⟩ (0 : Fin 2) * 5000 ≤ (i 0).val
      ∧ (i 0).val < win4_7.index ⟨(i 0).val / 5000, ht⟩ (0 : Fin 2) * 5000 + 5000
    rw [e70]; show (i 0).val / 5000 * 5000 ≤ (i 0).val ∧ (i 0).val < (i 0).val / 5000 * 5000 + 5000; omega
  | ⟨1, _⟩ =>
    show win4_7.index ⟨(i 0).val / 5000, ht⟩ (1 : Fin 2) * 1 ≤ (i 1).val
      ∧ (i 1).val < win4_7.index ⟨(i 0).val / 5000, ht⟩ (1 : Fin 2) * 1 + 1
    rw [e71]; omega

/-- The output array after region 4. -/
theorem final4 (c : Dev nD) :
    (dat4 (F := Ideal) V c).arrAt 7 cfg4.N
      = linRelu (N := 500000) (K := 128) (D := 1)
          (denseRelu (N := 500000) (K := 128) (D := 128) (V c main_v86) (V c main_v93) (V c main_v94) (V c main_v95) (V c main_v96))
          (V c main_arg16) (V c main_v97) :=
  (dat4 (F := Ideal) V c).arrAt_eq_of_cover 7 _ (fun t _ => flushed4_eq V c t) cover4

end Cert.KernelIdeal.RegionValue

end
-- ==== Proof.NetAt.lean ====
/-
  The network (Network.lean) at this program pair's extents and index operations: 100000 nodes of kind p, 50000 of
  kind d, 128 features, 600000 edges each way, 500000 labelled edges.  The neighbourhood means and the two end-point
  gathers are the reference program's own host operations, taken as functions of the feature array they read.
-/
import proofs.«106309_j65171833749593_1_alg».proof.Proof.Gen.ReferenceIdeal.Read
import proofs.«106309_j65171833749593_1_alg».proof.Proof.Network

noncomputable section

namespace Cert.NetAt

open Idealize.ShloMosaic Cert.ReferenceIdeal Cert.ReferenceIdeal.Read Cert.Network

/-- The mean over incoming p→d edges of a p-feature array (gather at `src`, scatter-add at `dst`, divide by the
    in-degree clamped below at one). -/
def aggPD (src dst : S600000.Idx → BitVec 32) (x : S100000x128.Idx → EReal) : S50000x128.Idx → EReal :=
  val_main_v17 (F := Ideal) x src dst

/-- The mean over incoming d→p edges of a d-feature array. -/
def aggDP (src dst : S600000.Idx → BitVec 32) (x : S50000x128.Idx → EReal) : S100000x128.Idx → EReal :=
  val_main_v42 (F := Ideal) x src dst

/-- The rows of a p-feature array named by the labelled edges' first ends. -/
def atRow (row : S500000.Idx → BitVec 32) (z : S100000x128.Idx → EReal) : S500000x128.Idx → EReal :=
  Host.gather gather_S100000x128_S500000x1_S500000x128_1_0_n_n_0_1_1128 z (val_main_v105 (F := Ideal) row)

/-- The rows of a d-feature array named by the labelled edges' second ends. -/
def atCol (col : S500000.Idx → BitVec 32) (z : S50000x128.Idx → EReal) : S500000x128.Idx → EReal :=
  Host.gather gather_S50000x128_S500000x1_S500000x128_1_0_n_n_0_1_1128 z (val_main_v112 (F := Ideal) col)

/-- The result both programs compute, as a function of the 24 arguments. -/
def net (x0 : S100000x128.Idx → EReal) (x1 : S50000x128.Idx → EReal)
    (x2 : S128x128.Idx → EReal) (x3 : S128.Idx → EReal) (x4 x5 : S128x128.Idx → EReal) (x6 : S128.Idx → EReal)
    (x7 x8 : S128x128.Idx → EReal) (x9 : S128.Idx → EReal) (x10 x11 : S128x128.Idx → EReal) (x12 : S128.Idx → EReal)
    (x13 : S128x128.Idx → EReal) (x14 : S256x128.Idx → EReal) (x15 : S128.Idx → EReal) (x16 : S128x1.Idx → EReal)
    (x17 : S1.Idx → EReal) (x18 x19 x20 x21 : S600000.Idx → BitVec 32) (x22 x23 : S500000.Idx → BitVec 32) :
    S500000x1.Idx → EReal :=
  network (NP := 100000) (ND := 50000) (EL := 500000) (K := 128) (H := 128)
    (aggPD x18 x19) (aggDP x20 x21) (atRow x22) (atCol x23)
    x0 x1 x2 (rowOf x3) x4 x5 (rowOf x6) x7 x8 (rowOf x9) x10 x11 (rowOf x12) x13
    (rowsFrom 0 (by decide) x14) (rowsFrom 128 (by decide) x14) (rowOf x15) x16 (rowOf x17)

end Cert.NetAt

end
-- ==== Proof.KChain.lean ====
/-
  The idealized kernel's result buffer holds the network of the launch memory's argument arrays.

  The boundary contents are followed from the launch to the return.  Before each region a stretch of host operations
  prepares the region's operands: the neighbourhood mean of the features computed so far (gather along the edges,
  scatter-add onto the targets, division by the clamped in-degree), the bias vector laid out as a row, and before the
  last region the two end-point gathers and the two halves of the decoder's first weight matrix.  These are the same
  operations the reference applies, so each operand is the corresponding term of the network.  Each region then
  leaves in its output array one dense layer (or, last, the decoder's two layers) of its operands, and a buffer
  nobody writes in between keeps its contents.  Composing the five steps gives the network.
-/
import proofs.«106309_j65171833749593_1_alg».proof.Proof.Gen.KernelIdeal.Frame
import proofs.«106309_j65171833749593_1_alg».proof.Proof.KTransport
import proofs.«106309_j65171833749593_1_alg».proof.Proof.RegionValue
import proofs.«106309_j65171833749593_1_alg».proof.Proof.NetAt
import proofs.«106309_j65171833749593_1_alg».proof.Proof.LibRowLayout
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo Idealize.ShloMosaic.ValueIdx
open Cert.KernelIdeal Cert.KernelIdeal.Gen Cert.KernelIdeal.Transport Cert.KernelIdeal.RegionValue
open Cert.LibDenseLayer Cert.Network Cert.NetAt

variable (m : (ℓ : Loc nD τ sig) → Buf (Elt Ideal) ℓ) (ρ : Dev nD → PrngReg) (c : Dev nD)

/-! ## The argument arrays at launch, and the network's intermediate feature arrays -/

abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
abbrev A7 := m ((c : Thread nD τ).loc main_arg7)
abbrev A8 := m ((c : Thread nD τ).loc main_arg8)
abbrev A9 := m ((c : Thread nD τ).loc main_arg9)
abbrev A10 := m ((c : Thread nD τ).loc main_arg10)
abbrev A11 := m ((c : Thread nD τ).loc main_arg11)
abbrev A12 := m ((c : Thread nD τ).loc main_arg12)
abbrev A13 := m ((c : Thread nD τ).loc main_arg13)
abbrev A14 := m ((c : Thread nD τ).loc main_arg14)
abbrev A15 := m ((c : Thread nD τ).loc main_arg15)
abbrev A16 := m ((c : Thread nD τ).loc main_arg16)
abbrev A17 := m ((c : Thread nD τ).loc main_arg17)
abbrev A18 := m ((c : Thread nD τ).loc main_arg18)
abbrev A19 := m ((c : Thread nD τ).loc main_arg19)
abbrev A20 := m ((c : Thread nD τ).loc main_arg20)
abbrev A21 := m ((c : Thread nD τ).loc main_arg21)
abbrev A22 := m ((c : Thread nD τ).loc main_arg22)
abbrev A23 := m ((c : Thread nD τ).loc main_arg23)

/-- A vector reshaped to one row is that vector read as a row. -/
theorem shapeCast_row {D : ℕ} (b : (⟨1, ![D]⟩ : Shape).Idx → EReal) (h : (⟨1, ![D]⟩ : Shape).ShapeCasts ⟨2, ![1, D]⟩) :
    shapeCast ⟨2, ![1, D]⟩ b h = rowOf b := by
  funext i
  obtain ⟨u, j, rfl⟩ : ∃ (u : Fin 1) (j : Fin D), i = ix2 u j := ⟨i 0, i 1, eq_ix2 i⟩
  exact Cert.LibRowLayout.shapeCast_b_1b_apply b h u j

/-- Round 1, nodes of kind d. -/
def hd : S50000x128.Idx → EReal :=
  denseRelu (N := 50000) (K := 128) (D := 128) (aggPD (A18 m c) (A19 m c) (A0 m c)) (A1 m c) (A2 m c) (A4 m c) (rowOf (A3 m c))
/-- Round 1, nodes of kind p. -/
def hp : S100000x128.Idx → EReal :=
  denseRelu (N := 100000) (K := 128) (D := 128) (aggDP (A20 m c) (A21 m c) (A1 m c)) (A0 m c) (A5 m c) (A7 m c) (rowOf (A6 m c))
/-- Round 2, nodes of kind d. -/
def zd : S50000x128.Idx → EReal :=
  denseRelu (N := 50000) (K := 128) (D := 128) (aggPD (A18 m c) (A19 m c) (hp m c)) (hd m c) (A8 m c) (A10 m c) (rowOf (A9 m c))
/-- Round 2, nodes of kind p. -/
def zp : S100000x128.Idx → EReal :=
  denseRelu (N := 100000) (K := 128) (D := 128) (aggDP (A20 m c) (A21 m c) (hd m c)) (hp m c) (A11 m c) (A13 m c) (rowOf (A12 m c))

/-! ## Region 0: round 1 for the nodes of kind d -/

set_option maxHeartbeats 4000000 in
theorem V1_agg : (V1 m ρ c main_v17 : S50000x128.Idx → EReal) = aggPD (A18 m c) (A19 m c) (A0 m c) := by
  show StableHlo.after hostOps0 (W0 m ρ c) (Proc.devRef .tc main_v17) = _
  dsimp only [hostOps0]
  after_results_simp
  rfl

theorem V1_bias : (V1 m ρ c main_v18 : S1x128.Idx → EReal) = rowOf (A3 m c) := by
  show StableHlo.after hostOps0 (W0 m ρ c) (Proc.devRef .tc main_v18) = _
  dsimp only [hostOps0]
  after_results
  exact shapeCast_row _ _

theorem V1_x : V1 m ρ c main_arg1 = A1 m c := Eq.trans (b := W0 m ρ c (Proc.devRef .tc main_arg1)) (by not_written hostOps0) rfl
theorem V1_wl : V1 m ρ c main_arg2 = A2 m c := Eq.trans (b := W0 m ρ c (Proc.devRef .tc main_arg2)) (by not_written hostOps0) rfl
theorem V1_wr : V1 m ρ c main_arg4 = A4 m c := Eq.trans (b := W0 m ρ c (Proc.devRef .tc main_arg4)) (by not_written hostOps0) rfl

theorem W2_hd : W2 m ρ c (Proc.devRef .tc main_v19) = hd m c := by
  refine (W2_arr m ρ c 5).trans ((final0 (V1 m ρ) c).trans ?_)
  rw [V1_agg, V1_bias, V1_x, V1_wl, V1_wr]
  rfl

/-! ## Region 1: round 1 for the nodes of kind p -/

set_option maxHeartbeats 4000000 in
/-- The stretch before region 1, read at the mean's buffer, for any contents of the buffers it reads. -/
theorem stretch1_agg (W : Valuation τ sig (Elt Ideal)) :
    (StableHlo.after hostOps1 W (Proc.devRef .tc main_v37) : S100000x128.Idx → EReal)
      = aggDP (W (Proc.devRef .tc main_arg20)) (W (Proc.devRef .tc main_arg21)) (W (Proc.devRef .tc main_arg1)) := by
  dsimp only [hostOps1]
  after_results_simp
  rfl

theorem stretch1_bias (W : Valuation τ sig (Elt Ideal)) :
    (StableHlo.after hostOps1 W (Proc.devRef .tc main_v38) : S1x128.Idx → EReal) = rowOf (W (Proc.devRef .tc main_arg6)) := by
  dsimp only [hostOps1]
  after_results
  exact shapeCast_row _ _

theorem V3_agg : (V3 m ρ c main_v37 : S100000x128.Idx → EReal) = aggDP (A20 m c) (A21 m c) (A1 m c) := by
  refine (stretch1_agg (W2 m ρ c)).trans ?_
  rw [(show W2 m ρ c (Proc.devRef .tc main_arg20) = A20 m c from by carried2), (show W2 m ρ c (Proc.devRef .tc main_arg21) = A21 m c from by carried2), (show W2 m ρ c (Proc.devRef .tc main_arg1) = A1 m c from by carried2)]

theorem V3_bias : (V3 m ρ c main_v38 : S1x128.Idx → EReal) = rowOf (A6 m c) := by
  refine (stretch1_bias (W2 m ρ c)).trans ?_
  rw [(show W2 m ρ c (Proc.devRef .tc main_arg6) = A6 m c from by carried2)]

theorem V3_x : V3 m ρ c main_arg0 = A0 m c := by hop_host hostOps1; carried2
theorem V3_wl : V3 m ρ c main_arg5 = A5 m c := by hop_host hostOps1; carried2
theorem V3_wr : V3 m ρ c main_arg7 = A7 m c := by hop_host hostOps1; carried2

theorem W4_hp : W4 m ρ c (Proc.devRef .tc main_v39) = hp m c := by
  refine (W4_arr m ρ c 5).trans ((final1 (V3 m ρ) c).trans ?_)
  rw [V3_agg, V3_bias, V3_x, V3_wl, V3_wr]
  rfl

/-- Round 1's d-features are still in their buffer when region 1 has run. -/
theorem W4_hd : W4 m ρ c (Proc.devRef .tc main_v19) = hd m c :=
  (show W4 m ρ c (Proc.devRef .tc main_v19) = W2 m ρ c (Proc.devRef .tc main_v19) from by hop4; hop_host hostOps1; rfl).trans (W2_hd m ρ c)

/-! ## Region 2: round 2 for the nodes of kind d -/

set_option maxHeartbeats 4000000 in
theorem stretch2_agg (W : Valuation τ sig (Elt Ideal)) :
    (StableHlo.after hostOps2 W (Proc.devRef .tc main_v57) : S50000x128.Idx → EReal)
      = aggPD (W (Proc.devRef .tc main_arg18)) (W (Proc.devRef .tc main_arg19)) (W (Proc.devRef .tc main_v39)) := by
  dsimp only [hostOps2]
  after_results_simp
  rfl

theorem stretch2_bias (W : Valuation τ sig (Elt Ideal)) :
    (StableHlo.after hostOps2 W (Proc.devRef .tc main_v58) : S1x128.Idx → EReal) = rowOf (W (Proc.devRef .tc main_arg9)) := by
  dsimp only [hostOps2]
  after_results
  exact shapeCast_row _ _

theorem V5_agg : (V5 m ρ c main_v57 : S50000x128.Idx → EReal) = aggPD (A18 m c) (A19 m c) (hp m c) := by
  refine (stretch2_agg (W4 m ρ c)).trans ?_
  rw [(show W4 m ρ c (Proc.devRef .tc main_arg18) = A18 m c from by carried4), (show W4 m ρ c (Proc.devRef .tc main_arg19) = A19 m c from by carried4), W4_hp]

theorem V5_bias : (V5 m ρ c main_v58 : S1x128.Idx → EReal) = rowOf (A9 m c) := by
  refine (stretch2_bias (W4 m ρ c)).trans ?_
  rw [(show W4 m ρ c (Proc.devRef .tc main_arg9) = A9 m c from by carried4)]

theorem V5_x : V5 m ρ c main_v19 = hd m c :=
  (show V5 m ρ c main_v19 = W4 m ρ c (Proc.devRef .tc main_v19) from by not_written hostOps2).trans (W4_hd m ρ c)
theorem V5_wl : V5 m ρ c main_arg8 = A8 m c := by hop_host hostOps2; carried4
theorem V5_wr : V5 m ρ c main_arg10 = A10 m c := by hop_host hostOps2; carried4

theorem W6_zd : W6 m ρ c (Proc.devRef .tc main_v59) = zd m c := by
  refine (W6_arr m ρ c 5).trans ((final2 (V5 m ρ) c).trans ?_)
  rw [V5_agg, V5_bias, V5_x, V5_wl, V5_wr]
  rfl

theorem W6_hd : W6 m ρ c (Proc.devRef .tc main_v19) = hd m c :=
  (show W6 m ρ c (Proc.devRef .tc main_v19) = W2 m ρ c (Proc.devRef .tc main_v19) from by hop6; hop_host hostOps2; hop4; hop_host hostOps1; rfl).trans (W2_hd m ρ c)
theorem W6_hp : W6 m ρ c (Proc.devRef .tc main_v39) = hp m c :=
  (show W6 m ρ c (Proc.devRef .tc main_v39) = W4 m ρ c (Proc.devRef .tc main_v39) from by hop6; hop_host hostOps2; rfl).trans (W4_hp m ρ c)

/-! ## Region 3: round 2 for the nodes of kind p -/

set_option maxHeartbeats 4000000 in
theorem stretch3_agg (W : Valuation τ sig (Elt Ideal)) :
    (StableHlo.after hostOps3 W (Proc.devRef .tc main_v77) : S100000x128.Idx → EReal)
      = aggDP (W (Proc.devRef .tc main_arg20)) (W (Proc.devRef .tc main_arg21)) (W (Proc.devRef .tc main_v19)) := by
  dsimp only [hostOps3]
  after_results_simp
  rfl

theorem stretch3_bias (W : Valuation τ sig (Elt Ideal)) :
    (StableHlo.after hostOps3 W (Proc.devRef .tc main_v78) : S1x128.Idx → EReal) = rowOf (W (Proc.devRef .tc main_arg12)) := by
  dsimp only [hostOps3]
  after_results
  exact shapeCast_row _ _

theorem V7_agg : (V7 m ρ c main_v77 : S100000x128.Idx → EReal) = aggDP (A20 m c) (A21 m c) (hd m c) := by
  refine (stretch3_agg (W6 m ρ c)).trans ?_
  rw [(show W6 m ρ c (Proc.devRef .tc main_arg20) = A20 m c from by carried6), (show W6 m ρ c (Proc.devRef .tc main_arg21) = A21 m c from by carried6), W6_hd]

theorem V7_bias : (V7 m ρ c main_v78 : S1x128.Idx → EReal) = rowOf (A12 m c) := by
  refine (stretch3_bias (W6 m ρ c)).trans ?_
  rw [(show W6 m ρ c (Proc.devRef .tc main_arg12) = A12 m c from by carried6)]

theorem V7_x : V7 m ρ c main_v39 = hp m c :=
  (show V7 m ρ c main_v39 = W6 m ρ c (Proc.devRef .tc main_v39) from by not_written hostOps3).trans (W6_hp m ρ c)
theorem V7_wl : V7 m ρ c main_arg11 = A11 m c := by hop_host hostOps3; carried6
theorem V7_wr : V7 m ρ c main_arg13 = A13 m c := by hop_host hostOps3; carried6

theorem W8_zp : W8 m ρ c (Proc.devRef .tc main_v79) = zp m c := by
  refine (W8_arr m ρ c 5).trans ((final3 (V7 m ρ) c).trans ?_)
  rw [V7_agg, V7_bias, V7_x, V7_wl, V7_wr]
  rfl

theorem W8_zd : W8 m ρ c (Proc.devRef .tc main_v59) = zd m c :=
  (show W8 m ρ c (Proc.devRef .tc main_v59) = W6 m ρ c (Proc.devRef .tc main_v59) from by hop8; hop_host hostOps3; rfl).trans (W6_zd m ρ c)

/-! ## Region 4: the decoder -/

/-- Rows off … of an array taken by a slice whose column offset is zero. -/
theorem slice_rows {R A C : ℕ} (off : ℕ) (h : off + A ≤ R) (x : (⟨2, ![R, C]⟩ : Shape).Idx → EReal)
    (hs : (⟨2, ![R, C]⟩ : Shape).Slices ![off, 0] ⟨2, ![A, C]⟩) :
    extractStridedSlice ⟨2, ![A, C]⟩ ![off, 0] x hs = rowsFrom off h x := by
  funext j
  refine congrArg x (funext fun a => Fin.ext ?_)
  match a with
  | ⟨0, _⟩ => rfl
  | ⟨1, _⟩ => exact Nat.zero_add _

set_option maxHeartbeats 4000000 in
theorem stretch4_row (W : Valuation τ sig (Elt Ideal)) :
    (StableHlo.after hostOps4 W (Proc.devRef .tc main_v86) : S500000x128.Idx → EReal)
      = atRow (W (Proc.devRef .tc main_arg22)) (W (Proc.devRef .tc main_v79)) := by
  dsimp only [hostOps4]
  after_results_simp
  rfl

set_option maxHeartbeats 4000000 in
theorem stretch4_col (W : Valuation τ sig (Elt Ideal)) :
    (StableHlo.after hostOps4 W (Proc.devRef .tc main_v93) : S500000x128.Idx → EReal)
      = atCol (W (Proc.devRef .tc main_arg23)) (W (Proc.devRef .tc main_v59)) := by
  dsimp only [hostOps4]
  after_results_simp
  rfl

theorem stretch4_w1a (W : Valuation τ sig (Elt Ideal)) :
    (StableHlo.after hostOps4 W (Proc.devRef .tc main_v94) : S128x128.Idx → EReal)
      = rowsFrom 0 (by decide) (W (Proc.devRef .tc main_arg14) : S256x128.Idx → EReal) := by
  dsimp only [hostOps4]
  after_results
  exact slice_rows 0 _ _ _

theorem stretch4_w1b (W : Valuation τ sig (Elt Ideal)) :
    (StableHlo.after hostOps4 W (Proc.devRef .tc main_v95) : S128x128.Idx → EReal)
      = rowsFrom 128 (by decide) (W (Proc.devRef .tc main_arg14) : S256x128.Idx → EReal) := by
  dsimp only [hostOps4]
  after_results
  exact slice_rows 128 _ _ _

theorem stretch4_b1 (W : Valuation τ sig (Elt Ideal)) :
    (StableHlo.after hostOps4 W (Proc.devRef .tc main_v96) : S1x128.Idx → EReal) = rowOf (W (Proc.devRef .tc main_arg15)) := by
  dsimp only [hostOps4]
  after_results
  exact shapeCast_row _ _

theorem stretch4_b2 (W : Valuation τ sig (Elt Ideal)) :
    (StableHlo.after hostOps4 W (Proc.devRef .tc main_v97) : S1x1.Idx → EReal) = rowOf (W (Proc.devRef .tc main_arg17)) := by
  dsimp only [hostOps4]
  after_results
  exact shapeCast_row _ _

theorem V9_row : (V9 m ρ c main_v86 : S500000x128.Idx → EReal) = atRow (A22 m c) (zp m c) := by
  refine (stretch4_row (W8 m ρ c)).trans ?_
  rw [(show W8 m ρ c (Proc.devRef .tc main_arg22) = A22 m c from by carried8), W8_zp]
theorem V9_col : (V9 m ρ c main_v93 : S500000x128.Idx → EReal) = atCol (A23 m c) (zd m c) := by
  refine (stretch4_col (W8 m ρ c)).trans ?_
  rw [(show W8 m ρ c (Proc.devRef .tc main_arg23) = A23 m c from by carried8), W8_zd]
theorem V9_w1a : (V9 m ρ c main_v94 : S128x128.Idx → EReal) = rowsFrom 0 (by decide) (A14 m c : S256x128.Idx → EReal) := by
  refine (stretch4_w1a (W8 m ρ c)).trans ?_
  rw [(show W8 m ρ c (Proc.devRef .tc main_arg14) = A14 m c from by carried8)]
theorem V9_w1b : (V9 m ρ c main_v95 : S128x128.Idx → EReal) = rowsFrom 128 (by decide) (A14 m c : S256x128.Idx → EReal) := by
  refine (stretch4_w1b (W8 m ρ c)).trans ?_
  rw [(show W8 m ρ c (Proc.devRef .tc main_arg14) = A14 m c from by carried8)]
theorem V9_b1 : (V9 m ρ c main_v96 : S1x128.Idx → EReal) = rowOf (A15 m c) := by
  refine (stretch4_b1 (W8 m ρ c)).trans ?_
  rw [(show W8 m ρ c (Proc.devRef .tc main_arg15) = A15 m c from by carried8)]
theorem V9_b2 : (V9 m ρ c main_v97 : S1x1.Idx → EReal) = rowOf (A17 m c) := by
  refine (stretch4_b2 (W8 m ρ c)).trans ?_
  rw [(show W8 m ρ c (Proc.devRef .tc main_arg17) = A17 m c from by carried8)]
theorem V9_w2 : V9 m ρ c main_arg16 = A16 m c := by hop_host hostOps4; carried8

/-- The result buffer after the last region: the network of the launch memory's argument arrays. -/
theorem W10_result :
    W10 m ρ c (Proc.devRef .tc main_v98)
      = net (A0 m c) (A1 m c) (A2 m c) (A3 m c) (A4 m c) (A5 m c) (A6 m c) (A7 m c) (A8 m c) (A9 m c) (A10 m c) (A11 m c)
          (A12 m c) (A13 m c) (A14 m c) (A15 m c) (A16 m c) (A17 m c) (A18 m c) (A19 m c) (A20 m c) (A21 m c) (A22 m c) (A23 m c) := by
  refine (W10_arr m ρ c 7).trans ((final4 (V9 m ρ) c).trans ?_)
  rw [V9_row, V9_col, V9_w1a, V9_w1b, V9_b1, V9_b2, V9_w2]
  rfl

end Cert.KernelIdeal.Chain

end
-- ==== Proof.LibConcatCols.lean ====
/-
  Two arrays with the same rows joined side by side, read at an entry.

  Joining an [R, A] array and an [R, B] array along the second axis gives an [R, C] array (C = A + B) whose entry
  (r, k') is the first array's entry (r, k') when k' < A, and the second array's entry (r, k' - A) otherwise.
  Generic in R, A, B, C and in the entries' type.
-/
import Idealize.ShloMosaic.Lib.Pipeline.Value
import Idealize.ShloMosaic.Lib.ValueIdx

noncomputable section

namespace Cert.LibConcatCols

open Idealize.ShloMosaic Idealize.ShloMosaic.ValueIdx

variable {α : Type}

/-- An entry whose column lies in the first piece is the first piece's entry at the same row and column. -/
theorem concat_cols_left {R A B C : Nat} (a : (⟨2, ![R, A]⟩ : Shape).Idx → α) (b : (⟨2, ![R, B]⟩ : Shape).Idx → α)
    (h : Shape.Concatenates [⟨2, ![R, A]⟩, ⟨2, ![R, B]⟩] ⟨2, ![R, C]⟩ 1) (r : Fin R) (k : Fin A) (k' : Fin C) (hk : k'.val = k.val) :
    concatenate ⟨2, ![R, C]⟩ 1 [⟨⟨2, ![R, A]⟩, a⟩, ⟨⟨2, ![R, B]⟩, b⟩] h (ix2 r k') = a (ix2 r k) :=
  concatenate_pair_apply_left 1 a b h (ix2 r k') rfl (ix2 r k) fun ax => by
    match ax with
    | ⟨0, _⟩ => rfl
    | ⟨1, _⟩ => exact hk.symm

/-- An entry whose column lies in the second piece is the second piece's entry at the same row, the column moved back
    by the first piece's width. -/
theorem concat_cols_right {R A B C : Nat} (a : (⟨2, ![R, A]⟩ : Shape).Idx → α) (b : (⟨2, ![R, B]⟩ : Shape).Idx → α)
    (h : Shape.Concatenates [⟨2, ![R, A]⟩, ⟨2, ![R, B]⟩] ⟨2, ![R, C]⟩ 1) (r : Fin R) (k : Fin B) (k' : Fin C) (hk : k'.val = A + k.val) :
    concatenate ⟨2, ![R, C]⟩ 1 [⟨⟨2, ![R, A]⟩, a⟩, ⟨⟨2, ![R, B]⟩, b⟩] h (ix2 r k') = b (ix2 r k) :=
  concatenate_pair_apply_right 1 a b h (ix2 r k') rfl rfl (ix2 r k)
    (fun ax hne => by
      match ax with
      | ⟨0, _⟩ => rfl
      | ⟨1, _⟩ => exact absurd rfl hne)
    (by show k.val + A = k'.val; omega)

end Cert.LibConcatCols

end
-- ==== Proof.RefValue.lean ====
/-
  The reference program's result is the network (NetAt.lean) of its arguments.

  The reference computes six rectified layers.  Four are message-passing layers of the form

      relu( mean · Wl + b + x · Wr ),

  written as: product, bias row spread over the rows, second product, and the larger of the entry and zero.  Entry
  by entry this is max( Σ_k mean(n,k) Wl(k,j) + Σ_k x(n,k) Wr(k,j) + b(j), 0 ): both contractions are plain sums
  over k, the doubly spread bias reads its entry j, the spread zero constant reads zero, and the three summands are
  regrouped by commutativity and associativity of addition on the extended reals (no finiteness is needed).  The
  second round's neighbourhood means are the same operations as the first round's, applied to the first round's
  results.

  The decoder's first layer contracts the two gathered [500000, 128] arrays, joined side by side into a
  [500000, 256] array, with a [256, 128] matrix W:

      Σ_{k' < 256} cat(n,k') W(k',j) = Σ_{k < 128} row(n,k) W(k,j) + Σ_{k < 128} col(n,k) W(128 + k,j),

  the sum over 256 = 128 + 128 positions split into its first and last 128, where the joined array reads its left
  piece and its right piece respectively.  So it is a layer with the top half of W on one end's features and the
  bottom half on the other's.  The last layer is one product with a [128, 1] matrix, a bias and the rectifier.
-/
import proofs.«106309_j65171833749593_1_alg».proof.Proof.Gen.ReferenceIdeal.Read
import proofs.«106309_j65171833749593_1_alg».proof.Proof.NetAt
import proofs.«106309_j65171833749593_1_alg».proof.Proof.LibConcatCols

set_option maxRecDepth 16384

noncomputable section

namespace Cert.ReferenceIdeal.RefValue

open Idealize.ShloMosaic Idealize.ShloMosaic.ValueIdx Cert.ReferenceIdeal Cert.ReferenceIdeal.Gen Cert.ReferenceIdeal.Read Cert.LibDenseLayer Cert.LibPlainDot Cert.Network Cert.NetAt

/-! ## Generic pieces: the spread zero constant, the bias row, one rectified layer -/

/-- A scalar spread over an array reads, everywhere, the scalar. -/
theorem bcast_scalar_apply {α : Type} {t : Shape} (h : (⟨0, ![]⟩ : Shape).BroadcastsInDim t (![] : Fin 0 → Fin t.rank))
    (c : (⟨0, ![]⟩ : Shape).Idx → α) (i : t.Idx) : broadcastInDim t ![] h c i = c ix0 :=
  broadcastInDim_apply _ h c i ix0 fun a => a.elim0

/-- A vector [D] has as many entries as the one-row array [1, D]. -/
theorem casts_row {D : ℕ} : (⟨1, ![D]⟩ : Shape).ShapeCasts ⟨2, ![1, D]⟩ := by
  show (⟨2, ![1, D]⟩ : Shape).numel = (⟨1, ![D]⟩ : Shape).numel
  simp [Shape.numel, Fin.prod_univ_succ]

/-- A vector viewed as a one-row array is `rowOf` of it. -/
theorem shapeCast_eq_rowOf {D : ℕ} (b : (⟨1, ![D]⟩ : Shape).Idx → EReal) (hc : (⟨1, ![D]⟩ : Shape).ShapeCasts ⟨2, ![1, D]⟩) :
    shapeCast ⟨2, ![1, D]⟩ b hc = rowOf b := by
  funext i
  obtain ⟨u, j, rfl⟩ : ∃ (u : Fin 1) (j : Fin D), i = ix2 u j := ⟨i 0, i 1, eq_ix2 i⟩
  exact Cert.LibRowLayout.shapeCast_b_1b_apply b hc u j

variable {N K D : ℕ}

/-- One message-passing layer in the host's form — product, bias added, second product added, the larger of the
    result and the spread zero constant — is `denseRelu`. -/
theorem host_denseRelu {Dd : DotDims ⟨2, ![N, K]⟩ ⟨2, ![K, D]⟩ ⟨2, ![N, D]⟩} (hD : Plain Dd)
    (a x : FVec Ideal ⟨2, ![N, K]⟩ .f32) (wl wr : FVec Ideal ⟨2, ![K, D]⟩ .f32) (b : FVec Ideal ⟨1, ![D]⟩ .f32)
    (h1 : (⟨1, ![D]⟩ : Shape).BroadcastsInDim ⟨2, ![1, D]⟩ (![1] : Fin 1 → Fin 2))
    (h2 : (⟨2, ![1, D]⟩ : Shape).BroadcastsInDim ⟨2, ![N, D]⟩ (![0, 1] : Fin 2 → Fin 2))
    (h0 : (⟨0, ![]⟩ : Shape).BroadcastsInDim ⟨2, ![N, D]⟩ (![] : Fin 0 → Fin 2)) :
    maximumf (addf (addf (FloatOps.dotGeneral Dd none .single a wl)
        (broadcastInDim ⟨2, ![N, D]⟩ ![0, 1] h2 (broadcastInDim ⟨2, ![1, D]⟩ ![1] h1 b)))
      (FloatOps.dotGeneral Dd none .single x wr))
      (broadcastInDim ⟨2, ![N, D]⟩ ![] h0 (constant (F := Ideal) ⟨0, ![]⟩ .f32 0x00000000#32))
      = denseRelu a x wl wr (rowOf b) := by
  rw [host_dense hD a x wl wr b h1 h2 casts_row, shapeCast_eq_rowOf]
  funext i
  rw [maximumf_apply, bcast_scalar_apply]
  rfl

/-- One linear layer in the host's form — product, bias added, the larger of the result and the spread zero
    constant — is `linRelu`. -/
theorem host_linRelu {Dd : DotDims ⟨2, ![N, K]⟩ ⟨2, ![K, D]⟩ ⟨2, ![N, D]⟩} (hD : Plain Dd)
    (h : FVec Ideal ⟨2, ![N, K]⟩ .f32) (w : FVec Ideal ⟨2, ![K, D]⟩ .f32) (b : FVec Ideal ⟨1, ![D]⟩ .f32)
    (h1 : (⟨1, ![D]⟩ : Shape).BroadcastsInDim ⟨2, ![1, D]⟩ (![1] : Fin 1 → Fin 2))
    (h2 : (⟨2, ![1, D]⟩ : Shape).BroadcastsInDim ⟨2, ![N, D]⟩ (![0, 1] : Fin 2 → Fin 2))
    (h0 : (⟨0, ![]⟩ : Shape).BroadcastsInDim ⟨2, ![N, D]⟩ (![] : Fin 0 → Fin 2)) :
    maximumf (addf (FloatOps.dotGeneral Dd none .single h w)
        (broadcastInDim ⟨2, ![N, D]⟩ ![0, 1] h2 (broadcastInDim ⟨2, ![1, D]⟩ ![1] h1 b)))
      (broadcastInDim ⟨2, ![N, D]⟩ ![] h0 (constant (F := Ideal) ⟨0, ![]⟩ .f32 0x00000000#32))
      = linRelu h w (rowOf b) := by
  funext i
  obtain ⟨n, j, rfl⟩ : ∃ (n : Fin N) (j : Fin D), i = ix2 n j := ⟨i 0, i 1, eq_ix2 i⟩
  rw [maximumf_apply, addf_apply, hD.dotGeneral_apply, bcast_row_rows_apply, bcast_vec_row_apply, bcast_scalar_apply,
    linRelu_ix2]
  rfl

/-! ## The four contractions of this program are plain matrix products -/

theorem plain_d : Plain dot_S50000x128_S128x128_S50000x128_1_0_0_1_n_n := ⟨rfl, rfl, rfl, rfl, rfl, rfl⟩
theorem plain_p : Plain dot_S100000x128_S128x128_S100000x128_1_0_0_1_n_n := ⟨rfl, rfl, rfl, rfl, rfl, rfl⟩
theorem plain_cat : Plain dot_S500000x256_S256x128_S500000x128_1_0_0_1_n_n := ⟨rfl, rfl, rfl, rfl, rfl, rfl⟩
theorem plain_out : Plain dot_S500000x128_S128x1_S500000x1_1_0_0_1_n_n := ⟨rfl, rfl, rfl, rfl, rfl, rfl⟩

/-! ## The decoder's first layer: a contraction over 256 = 128 + 128 joined columns -/

/-- A block of rows read at (k, j) is the array at (off + k, j). -/
theorem rowsFrom_ix2 {R A C : ℕ} (off : ℕ) (h : off + A ≤ R) (x : (⟨2, ![R, C]⟩ : Shape).Idx → EReal)
    (k : Fin A) (j : Fin C) (k' : Fin R) (hk : k'.val = off + k.val) : rowsFrom off h x (ix2 k j) = x (ix2 k' j) :=
  congrArg (fun t : Fin R => x (ix2 t j)) (Fin.ext hk.symm)

/-- The sum over the 256 joined columns is the sum over the left piece's 128 against the top half of the matrix plus
    the sum over the right piece's 128 against the bottom half. -/
theorem sum_joined (a b : S500000x128.Idx → EReal) (w : S256x128.Idx → EReal) (n : Fin 500000) (j : Fin 128) :
    ∑ k' : Fin 256, concatenate S500000x256 1 [⟨S500000x128, a⟩, ⟨S500000x128, b⟩]
        concatenates_S500000x128_S500000x128_S500000x256_d1 (ix2 n k') * w (ix2 k' j)
      = ∑ k : Fin 128, a (ix2 n k) * rowsFrom 0 (by decide) w (ix2 k j)
        + ∑ k : Fin 128, b (ix2 n k) * rowsFrom 128 (by decide) w (ix2 k j) := by
  refine (Fin.sum_univ_add (a := 128) (b := 128) (fun k' : Fin (128 + 128) =>
    concatenate S500000x256 1 [⟨S500000x128, a⟩, ⟨S500000x128, b⟩]
      concatenates_S500000x128_S500000x128_S500000x256_d1 (ix2 n k') * w (ix2 k' j))).trans ?_
  congr 1
  · refine Finset.sum_congr rfl fun k _ => ?_
    beta_reduce
    rw [Cert.LibConcatCols.concat_cols_left a b _ n k (Fin.castAdd 128 k) rfl,
      rowsFrom_ix2 0 _ w k j (Fin.castAdd 128 k) (Nat.zero_add _).symm]
  · refine Finset.sum_congr rfl fun k _ => ?_
    beta_reduce
    rw [Cert.LibConcatCols.concat_cols_right a b _ n k (Fin.natAdd 128 k) rfl,
      rowsFrom_ix2 128 _ w k j (Fin.natAdd 128 k) rfl]

/-- The decoder's first layer in the host's form — the joined array times the whole matrix, bias added, the larger of
    the result and the spread zero constant — is `denseRelu` of the two pieces with the matrix's two halves. -/
theorem host_decoder (a b : FVec Ideal S500000x128 .f32) (w : FVec Ideal S256x128 .f32) (bias : FVec Ideal S128 .f32) :
    maximumf (addf (FloatOps.dotGeneral dot_S500000x256_S256x128_S500000x128_1_0_0_1_n_n none .single
          (concatenate S500000x256 1 [⟨S500000x128, a⟩, ⟨S500000x128, b⟩]
            concatenates_S500000x128_S500000x128_S500000x256_d1) w)
        (broadcastInDim S500000x128 ![0, 1] bcast_S1x128_S500000x128_0_1
          (broadcastInDim S1x128 ![1] bcast_S128_S1x128_1 bias)))
      (broadcastInDim S500000x128 ![] bcast_S_S500000x128 (constant (F := Ideal) S_ .f32 0x00000000#32))
      = denseRelu a b (rowsFrom 0 (by decide) w) (rowsFrom 128 (by decide) w) (rowOf bias) := by
  funext i
  obtain ⟨n, j, rfl⟩ : ∃ (n : Fin 500000) (j : Fin 128), i = ix2 n j := ⟨i 0, i 1, eq_ix2 i⟩
  rw [maximumf_apply, addf_apply, plain_cat.dotGeneral_apply, sum_joined, bcast_row_rows_apply, bcast_vec_row_apply,
    bcast_scalar_apply, denseRelu_ix2]
  rfl

/-! ## The reference's six layers, each as a function of the values it reads -/

section Layers

variable (x0 : S100000x128.Idx → EReal) (x1 : S50000x128.Idx → EReal)
  (x2 : S128x128.Idx → EReal) (x3 : S128.Idx → EReal) (x4 x5 : S128x128.Idx → EReal) (x6 : S128.Idx → EReal)
  (x7 x8 : S128x128.Idx → EReal) (x9 : S128.Idx → EReal) (x10 x11 : S128x128.Idx → EReal) (x12 : S128.Idx → EReal)
  (x13 : S128x128.Idx → EReal) (x14 : S256x128.Idx → EReal) (x15 : S128.Idx → EReal) (x16 : S128x1.Idx → EReal)
  (x17 : S1.Idx → EReal) (x18 x19 x20 x21 : S600000.Idx → BitVec 32) (x22 x23 : S500000.Idx → BitVec 32)

/-- Round one, kind d: the p→d mean of the p-features and the d-features themselves. -/
theorem round1_d : val_main_v24 (F := Ideal) x0 x1 x2 x3 x4 x18 x19
    = denseRelu (aggPD x18 x19 x0) x1 x2 x4 (rowOf x3) :=
  host_denseRelu plain_d (val_main_v17 (F := Ideal) x0 x18 x19) x1 x2 x4 x3
    bcast_S128_S1x128_1 bcast_S1x128_S50000x128_0_1 bcast_S_S50000x128

/-- Round one, kind p: the d→p mean of the d-features and the p-features themselves. -/
theorem round1_p : val_main_v49 (F := Ideal) x0 x1 x5 x6 x7 x20 x21
    = denseRelu (aggDP x20 x21 x1) x0 x5 x7 (rowOf x6) :=
  host_denseRelu plain_p (val_main_v42 (F := Ideal) x1 x20 x21) x0 x5 x7 x6
    bcast_S128_S1x128_1 bcast_S1x128_S100000x128_0_1 bcast_S_S100000x128

/-- Round two's p→d mean is round one's operation on round one's p-result. -/
theorem mean2_pd : val_main_v67 (F := Ideal) x0 x1 x5 x6 x7 x18 x19 x20 x21
    = aggPD x18 x19 (val_main_v49 (F := Ideal) x0 x1 x5 x6 x7 x20 x21) := rfl

/-- Round two's d→p mean is round one's operation on round one's d-result. -/
theorem mean2_dp : val_main_v92 (F := Ideal) x0 x1 x2 x3 x4 x18 x19 x20 x21
    = aggDP x20 x21 (val_main_v24 (F := Ideal) x0 x1 x2 x3 x4 x18 x19) := rfl

/-- Round two, kind d. -/
theorem round2_d : val_main_v74 (F := Ideal) x0 x1 x2 x3 x4 x5 x6 x7 x8 x9 x10 x18 x19 x20 x21
    = denseRelu (aggPD x18 x19 (val_main_v49 (F := Ideal) x0 x1 x5 x6 x7 x20 x21))
        (val_main_v24 (F := Ideal) x0 x1 x2 x3 x4 x18 x19) x8 x10 (rowOf x9) :=
  (host_denseRelu plain_d (val_main_v67 (F := Ideal) x0 x1 x5 x6 x7 x18 x19 x20 x21)
    (val_main_v24 (F := Ideal) x0 x1 x2 x3 x4 x18 x19) x8 x10 x9
    bcast_S128_S1x128_1 bcast_S1x128_S50000x128_0_1 bcast_S_S50000x128).trans
    (by rw [mean2_pd])

/-- Round two, kind p. -/
theorem round2_p : val_main_v99 (F := Ideal) x0 x1 x2 x3 x4 x5 x6 x7 x11 x12 x13 x18 x19 x20 x21
    = denseRelu (aggDP x20 x21 (val_main_v24 (F := Ideal) x0 x1 x2 x3 x4 x18 x19))
        (val_main_v49 (F := Ideal) x0 x1 x5 x6 x7 x20 x21) x11 x13 (rowOf x12) :=
  (host_denseRelu plain_p (val_main_v92 (F := Ideal) x0 x1 x2 x3 x4 x18 x19 x20 x21)
    (val_main_v49 (F := Ideal) x0 x1 x5 x6 x7 x20 x21) x11 x13 x12
    bcast_S128_S1x128_1 bcast_S1x128_S100000x128_0_1 bcast_S_S100000x128).trans
    (by rw [mean2_dp])

/-- The decoder's first layer, on the two gathered round-two results. -/
theorem decoder1 : val_main_v119 (F := Ideal) x0 x1 x2 x3 x4 x5 x6 x7 x8 x9 x10 x11 x12 x13 x14 x15 x18 x19 x20 x21 x22 x23
    = denseRelu (atRow x22 (val_main_v99 (F := Ideal) x0 x1 x2 x3 x4 x5 x6 x7 x11 x12 x13 x18 x19 x20 x21))
        (atCol x23 (val_main_v74 (F := Ideal) x0 x1 x2 x3 x4 x5 x6 x7 x8 x9 x10 x18 x19 x20 x21))
        (rowsFrom 0 (by decide) x14) (rowsFrom 128 (by decide) x14) (rowOf x15) :=
  host_decoder (val_main_v106 (F := Ideal) x0 x1 x2 x3 x4 x5 x6 x7 x11 x12 x13 x18 x19 x20 x21 x22)
    (val_main_v113 (F := Ideal) x0 x1 x2 x3 x4 x5 x6 x7 x8 x9 x10 x18 x19 x20 x21 x23) x14 x15

/-- The decoder's last layer. -/
theorem decoder2 : val_main_v124 (F := Ideal) x0 x1 x2 x3 x4 x5 x6 x7 x8 x9 x10 x11 x12 x13 x14 x15 x16 x17 x18 x19 x20 x21 x22 x23
    = linRelu (val_main_v119 (F := Ideal) x0 x1 x2 x3 x4 x5 x6 x7 x8 x9 x10 x11 x12 x13 x14 x15 x18 x19 x20 x21 x22 x23)
        x16 (rowOf x17) :=
  host_linRelu plain_out
    (val_main_v119 (F := Ideal) x0 x1 x2 x3 x4 x5 x6 x7 x8 x9 x10 x11 x12 x13 x14 x15 x18 x19 x20 x21 x22 x23) x16 x17
    bcast_S1_S1x1_1 bcast_S1x1_S500000x1_0_1 bcast_S_S500000x1

end Layers

/-- The reference's result is the network of its arguments: the last layer of the decoder's first layer of the two
    gathers of round two of round one, each layer in its entry-by-entry form. -/
theorem result_eq (x0 : S100000x128.Idx → EReal) (x1 : S50000x128.Idx → EReal)
    (x2 : S128x128.Idx → EReal) (x3 : S128.Idx → EReal) (x4 x5 : S128x128.Idx → EReal) (x6 : S128.Idx → EReal)
    (x7 x8 : S128x128.Idx → EReal) (x9 : S128.Idx → EReal) (x10 x11 : S128x128.Idx → EReal) (x12 : S128.Idx → EReal)
    (x13 : S128x128.Idx → EReal) (x14 : S256x128.Idx → EReal) (x15 : S128.Idx → EReal) (x16 : S128x1.Idx → EReal)
    (x17 : S1.Idx → EReal) (x18 x19 x20 x21 : S600000.Idx → BitVec 32) (x22 x23 : S500000.Idx → BitVec 32) :
    val_main_v124 (F := Ideal) x0 x1 x2 x3 x4 x5 x6 x7 x8 x9 x10 x11 x12 x13 x14 x15 x16 x17 x18 x19 x20 x21 x22 x23 = net x0 x1 x2 x3 x4 x5 x6 x7 x8 x9 x10 x11 x12 x13 x14 x15 x16 x17 x18 x19 x20 x21 x22 x23 := by
  rw [decoder2, decoder1, round2_p, round2_d, round1_p, round1_d]
  rfl

end Cert.ReferenceIdeal.RefValue

end
-- ==== Proof.lean ====
/-
  The certificate of a two-round message-passing network with an edge decoder, kernel against reference.

  Both programs compute, for 100000 nodes of kind p and 50000 of kind d with 128 features each, two rounds of

      new_d = relu( mean_{p→d}(old_p) · Wl + old_d · Wr + b ),     new_p likewise with the roles exchanged,

  and then, for each of 500000 labelled edges, relu( relu( [z_p(row) | z_d(col)] · W1 + b1 ) · W2 + b2 ).
  The kernel runs the four dense layers and the decoder as five pipelined regions over tiles of 5000 rows, with the
  neighbourhood means and the end-point gathers as host operations between them; the reference is host operations
  throughout.  The two differ in how a layer's three summands are grouped (bias last against bias between the
  products), in the decoder's first product (two 128-long contractions against one 256-long contraction of the joined
  features) and in passing operands through a narrower float format, which is the identity on the extended reals.
  Addition on the extended reals is commutative and associative everywhere, so the results agree at every input:
  the precondition is not used by the value claim.

  The frames of the two kernel programs are the generated ones; the reference's frame is its generated run with the
  result dropped.  The idealization rewrote no operation, so there is nothing to preserve.  For the value claim the
  idealized kernel's run ends with its result buffer at the network of the argument arrays (Proof/KRun.lean,
  Proof/KChain.lean over Proof/RegionValue.lean), and the reference's generated run ends at a term that is the same
  network (Proof/RefValue.lean).
-/
import proofs.«106309_j65171833749593_1_alg».proof.Defs
import proofs.«106309_j65171833749593_1_alg».proof.Proof.Gen.Kernel
import proofs.«106309_j65171833749593_1_alg».proof.Proof.Gen.Kernel.Skeleton
import proofs.«106309_j65171833749593_1_alg».proof.Proof.Gen.Kernel.Launch
import proofs.«106309_j65171833749593_1_alg».proof.Proof.Gen.Kernel.Points
import proofs.«106309_j65171833749593_1_alg».proof.Proof.Gen.Kernel.Frame
import proofs.«106309_j65171833749593_1_alg».proof.Proof.Gen.KernelIdeal
import proofs.«106309_j65171833749593_1_alg».proof.Proof.Gen.KernelIdeal.Skeleton
import proofs.«106309_j65171833749593_1_alg».proof.Proof.Gen.KernelIdeal.Launch
import proofs.«106309_j65171833749593_1_alg».proof.Proof.Gen.KernelIdeal.Points
import proofs.«106309_j65171833749593_1_alg».proof.Proof.Gen.KernelIdeal.Frame
import proofs.«106309_j65171833749593_1_alg».proof.Proof.Gen.ReferenceIdeal
import proofs.«106309_j65171833749593_1_alg».proof.Proof.Gen.ReferenceIdeal.Run
import proofs.«106309_j65171833749593_1_alg».proof.Proof.Gen.ReferenceIdeal.Read
import proofs.«106309_j65171833749593_1_alg».proof.Proof.Gen.Pre_finite_inputs
import proofs.«106309_j65171833749593_1_alg».proof.Proof.KRun
import proofs.«106309_j65171833749593_1_alg».proof.Proof.KChain
import proofs.«106309_j65171833749593_1_alg».proof.Proof.RefValue
import Idealize.ShloMosaic.Adequacy
import Idealize.ShloMosaic.Init

noncomputable section

namespace Cert.Proof

open Idealize.ShloMosaic Idealize.SL.Sem

theorem frame_k [Cert.Kernel.Facts] [Cert.Pre_finite_inputs.Facts] : Cert.frame_Kernel :=
  fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

/-- The reference's run with its result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both runs end at the network of the kernel's argument arrays: the kernel's by following its boundary contents,
    the reference's by reading its run's term and rewriting its arguments, which agree with the kernel's. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.NetAt.net (Cert.KernelIdeal.Chain.A0 m c) (Cert.KernelIdeal.Chain.A1 m c) (Cert.KernelIdeal.Chain.A2 m c) (Cert.KernelIdeal.Chain.A3 m c) (Cert.KernelIdeal.Chain.A4 m c) (Cert.KernelIdeal.Chain.A5 m c) (Cert.KernelIdeal.Chain.A6 m c) (Cert.KernelIdeal.Chain.A7 m c) (Cert.KernelIdeal.Chain.A8 m c) (Cert.KernelIdeal.Chain.A9 m c) (Cert.KernelIdeal.Chain.A10 m c) (Cert.KernelIdeal.Chain.A11 m c) (Cert.KernelIdeal.Chain.A12 m c) (Cert.KernelIdeal.Chain.A13 m c) (Cert.KernelIdeal.Chain.A14 m c) (Cert.KernelIdeal.Chain.A15 m c) (Cert.KernelIdeal.Chain.A16 m c) (Cert.KernelIdeal.Chain.A17 m c) (Cert.KernelIdeal.Chain.A18 m c) (Cert.KernelIdeal.Chain.A19 m c) (Cert.KernelIdeal.Chain.A20 m c) (Cert.KernelIdeal.Chain.A21 m c) (Cert.KernelIdeal.Chain.A22 m c) (Cert.KernelIdeal.Chain.A23 m c), ?_, ?_⟩
  · exact (θ_run Cert.KernelIdeal.defs _ _).mono
      (fun r h c => ⟨(h c).1.trans (Cert.KernelIdeal.Chain.W10_result m ρ c), (h c).2⟩)
      (Cert.KernelIdeal.Run.run_main (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10, e11, e12, e13, e14, e15, e16, e17, e18, e19, e20, e21, e22, e23⟩ := hagree c
    rw [(h c).1, Cert.ReferenceIdeal.Read.val_main_v124_eq, Cert.ReferenceIdeal.RefValue.result_eq,
      e0, e1, e2, e3, e4, e5, e6, e7, e8, e9, e10, e11, e12, e13, e14, e15, e16, e17, e18, e19, e20, e21, e22, e23]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
